-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32 : Shape := ⟨3, ![64, 32, 32]⟩
abbrev S128x192x32 : Shape := ⟨3, ![128, 192, 32]⟩
abbrev S64x768 : Shape := ⟨2, ![64, 768]⟩
abbrev S128x768 : Shape := ⟨2, ![128, 768]⟩
abbrev S64x32 : Shape := ⟨2, ![64, 32]⟩
abbrev S128x192 : Shape := ⟨2, ![128, 192]⟩
abbrev S_ : Shape := ⟨0, ![]⟩

class Facts : Prop where
  bcast_S_S64x32x32 : S_.BroadcastsInDim S64x32x32 (![] : Fin 0 → Fin S64x32x32.rank)
  reducesTo_S64x32x32_S_d0_1_2 : S64x32x32.ReducesTo [0, 1, 2] S_
  h_S_ : 0 < S_.numel
  bcast_S_S128x192x32 : S_.BroadcastsInDim S128x192x32 (![] : Fin 0 → Fin S128x192x32.rank)
  reducesTo_S128x192x32_S_d0_1_2 : S128x192x32.ReducesTo [0, 1, 2] S_
  bcast_S_S64x768 : S_.BroadcastsInDim S64x768 (![] : Fin 0 → Fin S64x768.rank)
  reducesTo_S64x768_S_d0_1 : S64x768.ReducesTo [0, 1] S_
  bcast_S_S128x768 : S_.BroadcastsInDim S128x768 (![] : Fin 0 → Fin S128x768.rank)
  reducesTo_S128x768_S_d0_1 : S128x768.ReducesTo [0, 1] S_

variable [Facts]

def fn_part1 {F : FTy → Type} [FloatOps F] (main_v13 : IVec S_ 1) (main_v16 : IVec S128x768 1) : IVec S_ 1 :=
  let main_c_5 : IVec S_ 1 := constantI S_ 1 1#1
  let main_v17 : IVec S_ 1 := (fun x v => Host.reduce IntOp.andi x v reducesTo_S128x768_S_d0_1 h_S_) main_v16 main_c_5
  let main_v18 : IVec S_ 1 := andi main_v13 main_v17
  main_v18

def fn {F : FTy → Type} [FloatOps F] (main_arg0 : FVec F S64x32x32 .f32) (main_arg1 : FVec F S128x192x32 .f32) (main_arg2 : FVec F S64x768 .f32) (main_arg3 : FVec F S128x768 .f32) (main_arg4 : IVec S64x32 32) (main_arg5 : IVec S128x192 32) (main_arg6 : IVec S64x32 32) : IVec S_ 1 :=
  let main_v0 : FVec F S64x32x32 .f32 := Host.absf main_arg0
  let main_cst : FVec F S_ .f32 := constant S_ .f32 0x7F800000#32
  let main_v1 : FVec F S64x32x32 .f32 := broadcastInDim S64x32x32 ![] bcast_S_S64x32x32 main_cst
  let main_v2 : IVec S64x32x32 1 := cmpf .olt main_v0 main_v1
  let main_c : IVec S_ 1 := constantI S_ 1 1#1
  let main_v3 : IVec S_ 1 := (fun x v => Host.reduce IntOp.andi x v reducesTo_S64x32x32_S_d0_1_2 h_S_) main_v2 main_c
  let main_v4 : FVec F S128x192x32 .f32 := Host.absf main_arg1
  let main_cst_0 : FVec F S_ .f32 := constant S_ .f32 0x7F800000#32
  let main_v5 : FVec F S128x192x32 .f32 := broadcastInDim S128x192x32 ![] bcast_S_S128x192x32 main_cst_0
  let main_v6 : IVec S128x192x32 1 := cmpf .olt main_v4 main_v5
  let main_c_1 : IVec S_ 1 := constantI S_ 1 1#1
  let main_v7 : IVec S_ 1 := (fun x v => Host.reduce IntOp.andi x v reducesTo_S128x192x32_S_d0_1_2 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S128x768 .f32 := Host.absf main_arg3
  let main_cst_4 : FVec F S_ .f32 := constant S_ .f32 0x7F800000#32
  let main_v15 : FVec F S128x768 .f32 := broadcastInDim S128x768 ![] bcast_S_S128x768 main_cst_4
  let main_v16 : IVec S128x768 1 := cmpf .olt main_v14 main_v15
  fn_part1 (F := F) main_v13 main_v16
-- ==== Kernel.lean ====
abbrev S64x32x32 : Shape := ⟨3, ![64, 32, 32]⟩
abbrev S128x192x32 : Shape := ⟨3, ![128, 192, 32]⟩
abbrev S64x768 : Shape := ⟨2, ![64, 768]⟩
abbrev S128x768 : Shape := ⟨2, ![128, 768]⟩
abbrev S64x32 : Shape := ⟨2, ![64, 32]⟩
abbrev S128x192 : Shape := ⟨2, ![128, 192]⟩
abbrev S64 : Shape := ⟨1, ![64]⟩
abbrev S_ : Shape := ⟨0, ![]⟩
abbrev S64x1 : Shape := ⟨2, ![64, 1]⟩
abbrev S64x2 : Shape := ⟨2, ![64, 2]⟩
abbrev S1 : Shape := ⟨1, ![1]⟩
abbrev S64x128 : Shape := ⟨2, ![64, 128]⟩
abbrev S8x32x32 : Shape := ⟨3, ![8, 32, 32]⟩
abbrev S8x32 : Shape := ⟨2, ![8, 32]⟩
abbrev S8x768 : Shape := ⟨2, ![8, 768]⟩
abbrev S8x128 : Shape := ⟨2, ![8, 128]⟩
abbrev S256x32 : Shape := ⟨2, ![256, 32]⟩
abbrev S256x1x1 : Shape := ⟨3, ![256, 1, 1]⟩
abbrev S8x1x32 : Shape := ⟨3, ![8, 1, 32]⟩
abbrev S32x192x32 : Shape := ⟨3, ![32, 192, 32]⟩
abbrev S6144x32 : Shape := ⟨2, ![6144, 32]⟩
abbrev S32x192 : Shape := ⟨2, ![32, 192]⟩
abbrev S256x6144 : Shape := ⟨2, ![256, 6144]⟩
abbrev S256x32x192 : Shape := ⟨3, ![256, 32, 192]⟩
abbrev S1x32x192 : Shape := ⟨3, ![1, 32, 192]⟩

abbrev nBuf : Space → Nat
  | .hbm => 44
  | .vmem => 14
  | .smem => 0
  | _ => 0

abbrev bufTy : (tb : Table) → Fin (tcTables nBuf tb) → BufTy
  | .hbm, ⟨0, _⟩ => ⟨S64x32x32, .f32⟩
  | .hbm, ⟨1, _⟩ => ⟨S128x192x32, .f32⟩
  | .hbm, ⟨2, _⟩ => ⟨S64x768, .f32⟩
  | .hbm, ⟨3, _⟩ => ⟨S128x768, .f32⟩
  | .hbm, ⟨4, _⟩ => ⟨S64x32, .i32⟩
  | .hbm, ⟨5, _⟩ => ⟨S128x192, .i32⟩
  | .hbm, ⟨6, _⟩ => ⟨S64x32, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64x32, .f32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S64x1, .i32⟩
  | .hbm, ⟨30, _⟩ => ⟨S64x2, .i32⟩
  | .hbm, ⟨31, _⟩ => ⟨S_, .f32⟩
  | .hbm, ⟨32, _⟩ => ⟨S64, .f32⟩
  | .hbm, ⟨33, _⟩ => ⟨S64x32, .f32⟩
  | .hbm, ⟨34, _⟩ => ⟨S_, .i32⟩
  | .hbm, ⟨35, _⟩ => ⟨S1, .i32⟩
  | .hbm, ⟨36, _⟩ => ⟨S_, .f32⟩
  | .hbm, ⟨37, _⟩ => ⟨S64, .f32⟩
  | .hbm, ⟨38, _⟩ => ⟨S64x32, .f32⟩
  | .hbm, ⟨39, _⟩ => ⟨S64x32x32, .bf16⟩
  | .hbm, ⟨40, _⟩ => ⟨S128x192x32, .bf16⟩
  | .hbm, ⟨41, _⟩ => ⟨S64x768, .bf16⟩
  | .hbm, ⟨42, _⟩ => ⟨S128x768, .bf16⟩
  | .hbm, ⟨43, _⟩ => ⟨S64x128, .f32⟩
  | .local _ .vmem, ⟨0, _⟩ => ⟨S8x32x32, .bf16⟩
  | .local _ .vmem, ⟨1, _⟩ => ⟨S8x32x32, .bf16⟩
  | .local _ .vmem, ⟨2, _⟩ => ⟨S8x32, .i32⟩
  | .local _ .vmem, ⟨3, _⟩ => ⟨S8x32, .i32⟩
  | .local _ .vmem, ⟨4, _⟩ => ⟨S8x32, .f32⟩
  | .local _ .vmem, ⟨5, _⟩ => ⟨S8x32, .f32⟩
  | .local _ .vmem, ⟨6, _⟩ => ⟨S8x768, .bf16⟩
  | .local _ .vmem, ⟨7, _⟩ => ⟨S8x768, .bf16⟩
  | .local _ .vmem, ⟨8, _⟩ => ⟨S128x192x32, .bf16⟩
  | .local _ .vmem, ⟨9, _⟩ => ⟨S128x192, .i32⟩
  | .local _ .vmem, ⟨10, _⟩ => ⟨S128x768, .bf16⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x192x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S64x32_S64_d1 : S64x32.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S_S1 : S_.BroadcastsInDim S1 (![] : Fin 0 → Fin S1.rank)
  bitsLt_bf16_f32 : FTy.bits .bf16 < FTy.bits .f32
  inb_S8x32x32_S8x32x32_0_0_0 : ∀ a, (![0, 0, 0] : Fin 3 → Nat) a + S8x32x32.size a ≤ S8x32x32.size a
  h_S8x32x32 : 0 < S8x32x32.numel
  shapeCasts_S8x32x32_S8x32x32 : S8x32x32.ShapeCasts S8x32x32
  shapeCasts_S8x32x32_S256x32 : S8x32x32.ShapeCasts S256x32
  inb_S8x32_S8x32_0_0 : ∀ a, (![0, 0] : Fin 2 → Nat) a + S8x32.size a ≤ S8x32.size a
  h_S8x32 : 0 < S8x32.numel
  shapeCasts_S8x32_S256x1x1 : S8x32.ShapeCasts S256x1x1
  shapeCasts_S8x32_S8x32 : S8x32.ShapeCasts S8x32
  shapeCasts_S8x32_S8x1x32 : S8x32.ShapeCasts S8x1x32
  inb_S128x192x32_S32x192x32_0_0_0 : ∀ a, (![0, 0, 0] : Fin 3 → Nat) a + S32x192x32.size a ≤ S128x192x32.size a
  h_S32x192x32 : 0 < S32x192x32.numel
  shapeCasts_S32x192x32_S32x192x32 : S32x192x32.ShapeCasts S32x192x32
  shapeCasts_S32x192x32_S6144x32 : S32x192x32.ShapeCasts S6144x32
  inb_S128x192_S32x192_0_0 : ∀ a, (![0, 0] : Fin 2 → Nat) a + S32x192.size a ≤ S128x192.size a
  h_S32x192 : 0 < S32x192.numel
  shapeCasts_S256x6144_S256x32x192 : S256x6144.ShapeCasts S256x32x192
  shapeCasts_S32x192_S1x32x192 : S32x192.ShapeCasts S1x32x192
  broadcasts_S256x1x1_S256x32x192 : S256x1x1.Broadcasts S256x32x192
  broadcasts_S1x32x192_S256x32x192 : S1x32x192.Broadcasts S256x32x192
  reduces_S256x32x192_S256x32 : S256x32x192.Reduces [2] S256x32
  shapeCasts_S256x32_S8x32x32 : S256x32.ShapeCasts S8x32x32
  shapeCasts_S8x1x32_S8x32 : S8x1x32.ShapeCasts S8x32
  inb_S8x128_S8x32_0_0 : ∀ a, (![0, 0] : Fin 2 → Nat) a + S8x32.size a ≤ S8x128.size a
  inb_S128x192x32_S32x192x32_32_0_0 : ∀ a, (![32, 0, 0] : Fin 3 → Nat) a + S32x192x32.size a ≤ S128x192x32.size a
  inb_S128x192_S32x192_32_0 : ∀ a, (![32, 0] : Fin 2 → Nat) a + S32x192.size a ≤ S128x192.size a
  inb_S8x128_S8x32_0_32 : ∀ a, (![0, 32] : Fin 2 → Nat) a + S8x32.size a ≤ S8x128.size a
  inb_S128x192x32_S32x192x32_64_0_0 : ∀ a, (![64, 0, 0] : Fin 3 → Nat) a + S32x192x32.size a ≤ S128x192x32.size a
  inb_S128x192_S32x192_64_0 : ∀ a, (![64, 0] : Fin 2 → Nat) a + S32x192.size a ≤ S128x192.size a
  inb_S8x128_S8x32_0_64 : ∀ a, (![0, 64] : Fin 2 → Nat) a + S8x32.size a ≤ S8x128.size a
  inb_S128x192x32_S32x192x32_96_0_0 : ∀ a, (![96, 0, 0] : Fin 3 → Nat) a + S32x192x32.size a ≤ S128x192x32.size a
  inb_S128x192_S32x192_96_0 : ∀ a, (![96, 0] : Fin 2 → Nat) a + S32x192.size a ≤ S128x192.size a
  inb_S8x128_S8x32_0_96 : ∀ a, (![0, 96] : Fin 2 → Nat) a + S8x32.size a ≤ S8x128.size a
  inb_S8x768_S8x768_0_0 : ∀ a, (![0, 0] : Fin 2 → Nat) a + S8x768.size a ≤ S8x768.size a
  h_S8x768 : 0 < S8x768.numel
  shapeCasts_S8x768_S8x768 : S8x768.ShapeCasts S8x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S8x128_S8x128_0_0 : ∀ a, (![0, 0] : Fin 2 → Nat) a + S8x128.size a ≤ S8x128.size a
  h_S8x128 : 0 < S8x128.numel
  scatter_S64x32_S64x2_S64_n_01_01_1_wf : ScatterDims.WF S64x32 S64x2 S64 [] [0, 1] [0, 1] 1
  scatter_S64x32_S1_S64_0_1_1_0_wf : ScatterDims.WF S64x32 S1 S64 [0] [1] [1] 0
  dot_S256x32_S6144x32_S256x6144_1_1_0_0_n_n_wf : DotDims.WF S256x32 S6144x32 S256x6144 [1] [1] [0] [0] [] []
  dot_S8x1x32_S8x32x32_S8x1x32_2_1_1_2_0_0_wf : DotDims.WF S8x1x32 S8x32x32 S8x1x32 [2] [1] [1] [2] [0] [0]
  dot_S8x768_S128x768_S8x128_1_1_0_0_n_n_wf : DotDims.WF S8x768 S128x768 S8x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x32.size a ≤ S64x32x32.size a
  hwx0_0 : ∀ i : grid0.Coords, EltTy.bits .bf16 = 32 ∨ (Rect.block (s := S64x32x32) S8x32x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S64x32.size a
  hwx0_1 : ∀ i : grid0.Coords, EltTy.bits .i32 = 32 ∨ (Rect.block (s := S64x32) S8x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S64x32.size a
  hwx0_2 : ∀ i : grid0.Coords, EltTy.bits .f32 = 32 ∨ (Rect.block (s := S64x32) S8x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x768.size a ≤ S64x768.size a
  hwx0_3 : ∀ i : grid0.Coords, EltTy.bits .bf16 = 32 ∨ (Rect.block (s := S64x768) S8x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x192x32.size a ≤ S128x192x32.size a
  hwx0_4 : ∀ i : grid0.Coords, EltTy.bits .bf16 = 32 ∨ (Rect.block (s := S128x192x32) S128x192x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x192.size a ≤ S128x192.size a
  hwx0_5 : ∀ i : grid0.Coords, EltTy.bits .i32 = 32 ∨ (Rect.block (s := S128x192) S128x192.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x768.size a ≤ S128x768.size a
  hwx0_6 : ∀ i : grid0.Coords, EltTy.bits .bf16 = 32 ∨ (Rect.block (s := S128x768) S128x768.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S64x128.size a
  hwx0_7 : ∀ i : grid0.Coords, EltTy.bits .f32 = 32 ∨ (Rect.block (s := S64x128) S8x128.size (cc0_transform_7 i) (hinb0_7 i)).WholeWords (EltTy.packing .f32)

variable [Facts₀]

def scatter_S64x32_S64x2_S64_n_01_01_1 : ScatterDims S64x32 S64x2 S64 where
  updateWindowDims := []
  insertedWindowDims := [0, 1]
  scatterDimsToOperandDims := [0, 1]
  indexVectorDim := 1
  wf := scatter_S64x32_S64x2_S64_n_01_01_1_wf
def scatter_S64x32_S1_S64_0_1_1_0 : ScatterDims S64x32 S1 S64 where
  updateWindowDims := [0]
  insertedWindowDims := [1]
  scatterDimsToOperandDims := [1]
  indexVectorDim := 0
  wf := scatter_S64x32_S1_S64_0_1_1_0_wf
def dot_S256x32_S6144x32_S256x6144_1_1_0_0_n_n : DotDims S256x32 S6144x32 S256x6144 where
  lhsContracting := [1]
  rhsContracting := [1]
  lhsNonContracting := [0]
  rhsNonContracting := [0]
  lhsBatch := []
  rhsBatch := []
  wf := dot_S256x32_S6144x32_S256x6144_1_1_0_0_n_n_wf
def dot_S8x1x32_S8x32x32_S8x1x32_2_1_1_2_0_0 : DotDims S8x1x32 S8x32x32 S8x1x32 where
  lhsContracting := [2]
  rhsContracting := [1]
  lhsNonContracting := [1]
  rhsNonContracting := [2]
  lhsBatch := [0]
  rhsBatch := [0]
  wf := dot_S8x1x32_S8x32x32_S8x1x32_2_1_1_2_0_0_wf
def dot_S8x768_S128x768_S8x128_1_1_0_0_n_n : DotDims S8x768 S128x768 S8x128 where
  lhsContracting := [1]
  rhsContracting := [1]
  lhsNonContracting := [0]
  rhsNonContracting := [0]
  lhsBatch := []
  rhsBatch := []
  wf := dot_S8x768_S128x768_S8x128_1_1_0_0_n_n_wf

abbrev win0_0 : Pipeline.Window sig grid0 :=
  Pipeline.Window.ofSpec (Memref.whole main_v23) S8x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S8x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x192x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S128x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x32x32 : Shape := ⟨3, ![64, 32, 32]⟩
abbrev S128x192x32 : Shape := ⟨3, ![128, 192, 32]⟩
abbrev S64x768 : Shape := ⟨2, ![64, 768]⟩
abbrev S128x768 : Shape := ⟨2, ![128, 768]⟩
abbrev S64x32 : Shape := ⟨2, ![64, 32]⟩
abbrev S128x192 : Shape := ⟨2, ![128, 192]⟩
abbrev S_ : Shape := ⟨0, ![]⟩
abbrev S64 : Shape := ⟨1, ![64]⟩
abbrev S64x1 : Shape := ⟨2, ![64, 1]⟩
abbrev S64x2 : Shape := ⟨2, ![64, 2]⟩
abbrev S64x32x128x192 : Shape := ⟨4, ![64, 32, 128, 192]⟩
abbrev S64x32x1x1 : Shape := ⟨4, ![64, 32, 1, 1]⟩
abbrev S1x1x128x192 : Shape := ⟨4, ![1, 1, 128, 192]⟩
abbrev S64x32x128 : Shape := ⟨3, ![64, 32, 128]⟩
abbrev S64x32x1 : Shape := ⟨3, ![64, 32, 1]⟩
abbrev S64x31x128 : Shape := ⟨3, ![64, 31, 128]⟩
abbrev S64x128 : Shape := ⟨2, ![64, 128]⟩
abbrev S768x128 : Shape := ⟨2, ![768, 128]⟩

abbrev nBuf : Space → Nat
  | .hbm => 54
  | .vmem => 0
  | .smem => 0
  | _ => 0

abbrev bufTy : (tb : Table) → Fin (tcTables nBuf tb) → BufTy
  | .hbm, ⟨0, _⟩ => ⟨S64x32x32, .f32⟩
  | .hbm, ⟨1, _⟩ => ⟨S128x192x32, .f32⟩
  | .hbm, ⟨2, _⟩ => ⟨S64x768, .f32⟩
  | .hbm, ⟨3, _⟩ => ⟨S128x768, .f32⟩
  | .hbm, ⟨4, _⟩ => ⟨S64x32, .i32⟩
  | .hbm, ⟨5, _⟩ => ⟨S128x192, .i32⟩
  | .hbm, ⟨6, _⟩ => ⟨S64x32, .i32⟩
  | .hbm, ⟨7, _⟩ => ⟨S_, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S64, .i32⟩
  | .hbm, ⟨27, _⟩ => ⟨S64x1, .i32⟩
  | .hbm, ⟨28, _⟩ => ⟨S64x1, .i32⟩
  | .hbm, ⟨29, _⟩ => ⟨S64x2, .i32⟩
  | .hbm, ⟨30, _⟩ => ⟨S_, .i32⟩
  | .hbm, ⟨31, _⟩ => ⟨S64, .i32⟩
  | .hbm, ⟨32, _⟩ => ⟨S64x32, .i32⟩
  | .hbm, ⟨33, _⟩ => ⟨S64x32, .f32⟩
  | .hbm, ⟨34, _⟩ => ⟨S64x32x128x192, .f32⟩
  | .hbm, ⟨35, _⟩ => ⟨S64x32x1x1, .i32⟩
  | .hbm, ⟨36, _⟩ => ⟨S1x1x128x192, .i32⟩
  | .hbm, ⟨37, _⟩ => ⟨S64x32x128x192, .i32⟩
  | .hbm, ⟨38, _⟩ => ⟨S64x32x128x192, .i32⟩
  | .hbm, ⟨39, _⟩ => ⟨S64x32x128x192, .i1⟩
  | .hbm, ⟨40, _⟩ => ⟨S_, .f32⟩
  | .hbm, ⟨41, _⟩ => ⟨S64x32x128x192, .f32⟩
  | .hbm, ⟨42, _⟩ => ⟨S64x32x128x192, .f32⟩
  | .hbm, ⟨43, _⟩ => ⟨S_, .f32⟩
  | .hbm, ⟨44, _⟩ => ⟨S64x32x128, .f32⟩
  | .hbm, ⟨45, _⟩ => ⟨S64x32x1, .f32⟩
  | .hbm, ⟨46, _⟩ => ⟨S64x32x128, .f32⟩
  | .hbm, ⟨47, _⟩ => ⟨S64x32x128, .f32⟩
  | .hbm, ⟨48, _⟩ => ⟨S64x31x128, .f32⟩
  | .hbm, ⟨49, _⟩ => ⟨S_, .f32⟩
  | .hbm, ⟨50, _⟩ => ⟨S64x128, .f32⟩
  | .hbm, ⟨51, _⟩ => ⟨S768x128, .f32⟩
  | .hbm, ⟨52, _⟩ => ⟨S64x128, .f32⟩
  | .hbm, ⟨53, _⟩ => ⟨S64x128, .f32⟩
  | _, _ => ⟨S64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_call0_v0 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  reducesTo_S64x32_S64_d1 : S64x32.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S64x32_S64x32x1x1_0_1 : S64x32.BroadcastsInDim S64x32x1x1 (![0, 1] : Fin 2 → Fin S64x32x1x1.rank)
  bcast_S128x192_S1x1x128x192_2_3 : S128x192.BroadcastsInDim S1x1x128x192 (![2, 3] : Fin 2 → Fin S1x1x128x192.rank)
  bcast_S64x32x1x1_S64x32x128x192_0_1_2_3 : S64x32x1x1.BroadcastsInDim S64x32x128x192 (![0, 1, 2, 3] : Fin 4 → Fin S64x32x128x192.rank)
  bcast_S1x1x128x192_S64x32x128x192_0_1_2_3 : S1x1x128x192.BroadcastsInDim S64x32x128x192 (![0, 1, 2, 3] : Fin 4 → Fin S64x32x128x192.rank)
  bcast_S_S64x32x128x192 : S_.BroadcastsInDim S64x32x128x192 (![] : Fin 0 → Fin S64x32x128x192.rank)
  reducesTo_S64x32x128x192_S64x32x128_d3 : S64x32x128x192.ReducesTo [3] S64x32x128
  bcast_S64x32_S64x32x1_0_1 : S64x32.BroadcastsInDim S64x32x1 (![0, 1] : Fin 2 → Fin S64x32x1.rank)
  bcast_S64x32x1_S64x32x128_0_1_2 : S64x32x1.BroadcastsInDim S64x32x128 (![0, 1, 2] : Fin 3 → Fin S64x32x128.rank)
  slices_S64x32x128_S64x31x128_0_1_0 : S64x32x128.Slices ![0, 1, 0] S64x31x128
  reducesTo_S64x31x128_S64x128_d1 : S64x31x128.ReducesTo [1] S64x128
  transposes_S128x768_S768x128_1_0 : S128x768.Transposes [1, 0] S768x128
  scatter_S64x32_S64x2_S64_n_01_01_1_wf : ScatterDims.WF S64x32 S64x2 S64 [] [0, 1] [0, 1] 1
  dot_S64x32x32_S128x192x32_S64x32x128x192_2_2_01_01_n_n_wf : DotDims.WF S64x32x32 S128x192x32 S64x32x128x192 [2] [2] [0, 1] [0, 1] [] []
  dot_S64x768_S768x128_S64x128_1_0_0_1_n_n_wf : DotDims.WF S64x768 S768x128 S64x128 [1] [0] [0] [1] [] []

variable [Facts₀]

def scatter_S64x32_S64x2_S64_n_01_01_1 : ScatterDims S64x32 S64x2 S64 where
  updateWindowDims := []
  insertedWindowDims := [0, 1]
  scatterDimsToOperandDims := [0, 1]
  indexVectorDim := 1
  wf := scatter_S64x32_S64x2_S64_n_01_01_1_wf
def dot_S64x32x32_S128x192x32_S64x32x128x192_2_2_01_01_n_n : DotDims S64x32x32 S128x192x32 S64x32x128x192 where
  lhsContracting := [2]
  rhsContracting := [2]
  lhsNonContracting := [0, 1]
  rhsNonContracting := [0, 1]
  lhsBatch := []
  rhsBatch := []
  wf := dot_S64x32x32_S128x192x32_S64x32x128x192_2_2_01_01_n_n_wf
def dot_S64x768_S768x128_S64x128_1_0_0_1_n_n : DotDims S64x768 S768x128 S64x128 where
  lhsContracting := [1]
  rhsContracting := [0]
  lhsNonContracting := [0]
  rhsNonContracting := [1]
  lhsBatch := []
  rhsBatch := []
  wf := dot_S64x768_S768x128_S64x128_1_0_0_1_n_n_wf

class Facts : Prop extends Facts₀ where

variable [Facts]
-- ==== Proof.BodyPieces.lean ====
/-
  What the kernel body leaves in its output block, as one term of its seven input blocks.

  The body treats the 128 documents in four chunks of 32. Chunk `k` multiplies the 256 flattened query tokens of the
  block against the chunk's 6144 document tokens, keeps a product where the two token ids agree and puts `0`
  elsewhere, takes the maximum over each document's 192 positions, and contracts the 32 query positions against the
  position weights; the 8 × 32 result goes to columns `32 k … 32 k + 31` of an 8 × 128 scratch buffer. After the
  fourth chunk the scratch buffer is read back whole, the product of the 8 query sentence embeddings with the 128
  document sentence embeddings is added, and the sum is stored as the output block.

  So the output block is the last step's sum of two terms, the first of which is what four stores into disjoint
  column ranges leave in the scratch buffer: `scratch` below. This module only names that term and shows that the
  pieces the body's run ends with are it; the arithmetic is read at an index elsewhere.
-/
import proofs.«147971_j15118284882567_2_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

/-- The four column ranges of the scratch buffer with what each chunk stores there, last store first: chunk `k`
    reads documents `32 k … 32 k + 31` of the document embeddings `x4` and of the document ids `x5`. -/
def scratchPieces (x0 : Vec F S8x32x32 .bf16) (x1 : Vec F S8x32 .i32) (x2 : Vec F S8x32 .f32) (x4 : Vec F S128x192x32 .bf16) (x5 : Vec F S128x192 .i32) : List (View.Piece (Elt F) S8x128 .f32) :=
  [⟨Rect.unit (s := S8x128) ![0, 96] S8x32.size inb_S8x128_S8x32_0_96,
      k0_pay1 (k0_pay4 x1) (k0_pay5 x2)
        (View.ld x5 (Rect.unit (s := S128x192) ![96, 0] S32x192.size inb_S128x192_S32x192_96_0))
        (k0_pay11 (k0_pay3 x0) (View.ld x4 (Rect.unit (s := S128x192x32) ![96, 0, 0] S32x192x32.size inb_S128x192x32_S32x192x32_96_0_0)))⟩,
   ⟨Rect.unit (s := S8x128) ![0, 64] S8x32.size inb_S8x128_S8x32_0_64,
      k0_pay10 (k0_pay3 x0) (k0_pay4 x1) (k0_pay5 x2)
        (View.ld x4 (Rect.unit (s := S128x192x32) ![64, 0, 0] S32x192x32.size inb_S128x192x32_S32x192x32_64_0_0))
        (View.ld x5 (Rect.unit (s := S128x192) ![64, 0] S32x192.size inb_S128x192_S32x192_64_0))⟩,
   ⟨Rect.unit (s := S8x128) ![0, 32] S8x32.size inb_S8x128_S8x32_0_32,
      k0_pay9 (k0_pay4 x1) (k0_pay5 x2)
        (k0_pay7 x0 (View.ld x4 (Rect.unit (s := S128x192x32) ![32, 0, 0] S32x192x32.size inb_S128x192x32_S32x192x32_32_0_0)))
        (k0_pay8 (View.ld x5 (Rect.unit (s := S128x192) ![32, 0] S32x192.size inb_S128x192_S32x192_32_0)))⟩,
   ⟨Rect.unit (s := S8x128) ![0, 0] S8x32.size inb_S8x128_S8x32_0_0,
      k0_pay6 x0 x1 x2
        (View.ld x4 (Rect.unit (s := S128x192x32) ![0, 0, 0] S32x192x32.size inb_S128x192x32_S32x192x32_0_0_0))
        (View.ld x5 (Rect.unit (s := S128x192) ![0, 0] S32x192.size inb_S128x192_S32x192_0_0))⟩]

/-- What the four stores leave in the scratch buffer. -/
def scratch (x0 : Vec F S8x32x32 .bf16) (x1 : Vec F S8x32 .i32) (x2 : Vec F S8x32 .f32) (x4 : Vec F S128x192x32 .bf16) (x5 : Vec F S128x192 .i32) : Vec F S8x128 .f32 :=
  View.canon (scratchPieces x0 x1 x2 x4 x5)

/-- The output block: the scratch buffer plus the product of the sentence embeddings. -/
def bodyOut (x0 : Vec F S8x32x32 .bf16) (x1 : Vec F S8x32 .i32) (x2 : Vec F S8x32 .f32) (x3 : Vec F S8x768 .bf16) (x4 : Vec F S128x192x32 .bf16) (x5 : Vec F S128x192 .i32) (x6 : Vec F S128x768 .bf16) : Vec F S8x128 .f32 :=
  k0_pay2 x3 x6 (scratch x0 x1 x2 x4 x5)

private theorem hz2 : (![0, 0] : Fin 2 → Nat) = fun _ => 0 := by funext a; fin_cases a <;> rfl
private theorem hz3 : (![0, 0, 0] : Fin 3 → Nat) = fun _ => 0 := by funext a; fin_cases a <;> rfl

/-- The pieces the body's run ends with, read back, are `bodyOut` of the input blocks: one store covers the output
    block, its payload the last step's sum over the whole-buffer loads of the two sentence-embedding blocks and of
    the scratch buffer after its four stores. -/
theorem out_eq (c : Dev nD) (i : grid0.Coords) (arg1 : Memref sig .tc .vmem S8x32x32 .bf16) (harg1 : arg1.IsWhole) (arg2 : Memref sig .tc .vmem S8x32 .i32) (harg2 : arg2.IsWhole) (arg3 : Memref sig .tc .vmem S8x32 .f32) (harg3 : arg3.IsWhole) (arg4 : Memref sig .tc .vmem S8x768 .bf16) (harg4 : arg4.IsWhole) (arg5 : Memref sig .tc .vmem S128x192x32 .bf16) (harg5 : arg5.IsWhole) (arg6 : Memref sig .tc .vmem S128x192 .i32) (harg6 : arg6.IsWhole) (arg7 : Memref sig .tc .vmem S128x768 .bf16) (harg7 : arg7.IsWhole) (arg8 : Memref sig .tc .vmem S8x128 .f32) (harg8 : arg8.IsWhole) (arg9 : Memref sig .tc .vmem S8x128 .f32) (harg9 : arg9.IsWhole)
    (x0 : Vec F S8x32x32 .bf16) (x1 : Vec F S8x32 .i32) (x2 : Vec F S8x32 .f32) (x3 : Vec F S8x768 .bf16) (x4 : Vec F S128x192x32 .bf16) (x5 : Vec F S128x192 .i32) (x6 : Vec F S128x768 .bf16) :
    out0_A_7 c i arg1 harg1 arg2 harg2 arg3 harg3 arg4 harg4 arg5 harg5 arg6 harg6 arg7 harg7 arg8 harg8 arg9 harg9 x0 x1 x2 x3 x4 x5 x6 = bodyOut x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz2]
  simp only [View.readAt_eq_ld, harg1.read_unread, harg2.read_unread, harg3.read_unread, harg4.read_unread,
    harg5.read_unread, harg6.read_unread, harg7.read_unread, View.ld_unit_zero (S := S8x32x32) hz3,
    View.ld_unit_zero (S := S8x32) hz2, View.ld_unit_zero (S := S8x768) hz2, View.ld_unit_zero (S := S128x768) hz2,
    View.readCov_eq_canon']
  show k0_pay2 x3 x6 (View.ld (View.canon (scratchPieces x0 x1 x2 x4 x5))
    (Rect.unit (s := S8x128) ![0, 0] S8x128.size inb_S8x128_S8x128_0_0)) = _
  rw [View.ld_unit_zero (S := S8x128) hz2]
  rfl

end Cert.KernelIdeal.Body

end
-- ==== Proof.Row.lean ====
/-
  The kernel flattens a block of 8 queries × 32 positions to 256 rows: position `l` of query `b` is row `32 b + l`.
-/
import Mathlib.Data.Fin.Basic

namespace Cert.KernelIdeal.Body

/-- Row `32 b + l` of the flattened block: position `l` of query `b`. -/
def row (b : Fin 8) (l : Fin 32) : Fin 256 := ⟨b.val * 32 + l.val, by omega⟩

theorem row_val (b : Fin 8) (l : Fin 32) : (row b l).val = b.val * 32 + l.val := rfl

end Cert.KernelIdeal.Body
-- ==== Proof.BodyReshape.lean ====
/-
  The query side of the kernel body, read at an index, and the four chunks as one function.

  The body flattens its block of 8 queries × 32 positions to 256 rows: row `32 b + l` is position `l` of query `b`.
  The token embeddings become a [256, 32] matrix, the token ids a [256, 1, 1] column, and the position weights stay
  8 rows but gain a unit middle axis, [8, 1, 32], so that the weighted sum over positions is a batched product.
  Each reshape keeps the row-major position of every entry.

  The four document chunks run the same operations on different 32-document slices; the printed program names
  their terms separately because some of their steps were computed ahead. Unfolding the names shows each is the
  third chunk's term at its own slice.
-/
import proofs.«147971_j15118284882567_2_alg».proof.Proof.Gen.KernelIdeal.Skeleton
import Idealize.ShloMosaic.Lib.Pipeline.Value
import Idealize.ShloMosaic.Lib.ValueIdx
import proofs.«147971_j15118284882567_2_alg».proof.Proof.Row

noncomputable section

namespace Cert.KernelIdeal.Body

open Cert.KernelIdeal Cert.KernelIdeal.Gen Idealize.ShloMosaic Idealize.ShloMosaic.ValueIdx

variable {F : FTy → Type} [FloatOps F]

/-- The flattened token embeddings at row `32 b + l`, component `e`, are the block's at `(b, l, e)`. -/
theorem pay3_apply (x0 : Vec F S8x32x32 .bf16) (b : Fin 8) (l : Fin 32) (e : Fin 32) :
    k0_pay3 x0 (ix2 (row b l) e) = x0 (ix3 b l e) := by
  unfold k0_pay3
  rw [shapeCast_self]
  refine shapeCast_apply _ _ _ _ ?_
  rw [Shape.rowMajor_val_three, Shape.rowMajor_val_two]
  show (b.val * 32 + l.val) * 32 + e.val = (b.val * 32 + l.val) * 32 + e.val
  rfl

/-- The flattened token ids at row `32 b + l` are the block's at `(b, l)`. -/
theorem pay4_apply (x1 : Vec F S8x32 .i32) (b : Fin 8) (l : Fin 32) :
    k0_pay4 x1 (ix3 (row b l) 0 0) = x1 (ix2 b l) := by
  unfold k0_pay4
  refine shapeCast_apply _ _ _ _ ?_
  rw [Shape.rowMajor_val_three, Shape.rowMajor_val_two]
  show b.val * 32 + l.val = ((b.val * 32 + l.val) * 1 + 0) * 1 + 0
  omega

/-- The position weights with the unit middle axis, at `(b, 0, l)`, are the block's at `(b, l)`. -/
theorem pay5_apply (x2 : Vec F S8x32 .f32) (b : Fin 8) (l : Fin 32) :
    k0_pay5 x2 (ix3 b 0 l) = x2 (ix2 b l) := by
  unfold k0_pay5
  rw [shapeCast_self]
  refine shapeCast_apply _ _ _ _ ?_
  rw [Shape.rowMajor_val_three, Shape.rowMajor_val_two]
  show b.val * 32 + l.val = (b.val * 1 + 0) * 32 + l.val
  omega

/-- The first chunk's term is the third chunk's at the first slice. -/
theorem pay6_eq (x0 : Vec F S8x32x32 .bf16) (x1 : Vec F S8x32 .i32) (x2 : Vec F S8x32 .f32)
    (v8 : Vec F S32x192x32 .bf16) (v11 : Vec F S32x192 .i32) :
    k0_pay6 x0 x1 x2 v8 v11 = k0_pay10 (k0_pay3 x0) (k0_pay4 x1) (k0_pay5 x2) v8 v11 := rfl

/-- The second chunk's term is the third chunk's at the second slice. -/
theorem pay9_eq (x0 : Vec F S8x32x32 .bf16) (x1 : Vec F S8x32 .i32) (x2 : Vec F S8x32 .f32)
    (v27 : Vec F S32x192x32 .bf16) (v30 : Vec F S32x192 .i32) :
    k0_pay9 (k0_pay4 x1) (k0_pay5 x2) (k0_pay7 x0 v27) (k0_pay8 v30)
      = k0_pay10 (k0_pay3 x0) (k0_pay4 x1) (k0_pay5 x2) v27 v30 := rfl

/-- The fourth chunk's term is the third chunk's at the fourth slice. -/
theorem pay1_eq (x0 : Vec F S8x32x32 .bf16) (x1 : Vec F S8x32 .i32) (x2 : Vec F S8x32 .f32)
    (v65 : Vec F S32x192x32 .bf16) (v68 : Vec F S32x192 .i32) :
    k0_pay1 (k0_pay4 x1) (k0_pay5 x2) v68 (k0_pay11 (k0_pay3 x0) v65)
      = k0_pay10 (k0_pay3 x0) (k0_pay4 x1) (k0_pay5 x2) v65 v68 := rfl

end Cert.KernelIdeal.Body

end
-- ==== Proof.LibDotTransposed.lean ====
/-
  A matrix product against a transposed right operand, read at an index, on the extended reals.

  For dimension numbers that contract the second axis of BOTH operands — an [M, K] array against a [P, K] array, the
  product of the first with the transpose of the second — the product into a zero accumulator, read at row `p` and
  column `q`, is `Σ k, l (p, k) · r (q, k)`: the dot product of row `p` of the left operand with row `q` of the right
  one. The contraction's index set has one axis; the sum is re-indexed through that axis's coordinate. The two facts
  about the free axes (the left index keeps the row, the right index keeps the output's column as its row) are taken as
  hypotheses, since for given dimension numbers they hold by computation.
-/
import Idealize.ShloMosaic.PureOps.Ideal.Laws
import Idealize.ShloMosaic.Lib.ValueIdx

noncomputable section

open scoped BigOperators

namespace Cert.LibDotTransposed

open Idealize.ShloMosaic Idealize.ShloMosaic.ValueIdx

/-- The product with the transposed right operand, into the zero accumulator, at (p, q): the sum over the contraction
    coordinate of the left operand at (p, k) times the right operand at (q, k). -/
theorem matmul_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

end Cert.LibDotTransposed

end
-- ==== Proof.Chunk.lean ====
/-
  One chunk of 32 documents of the kernel's body, read at an index, on the extended reals.

  The chunk's arithmetic is a chain of layout operations around two products and a lane maximum. The 32 documents'
  token embeddings [32, 192, 32] are flattened to 6144 rows; the 256 flattened query tokens are multiplied against
  them, contracting the embedding axis of both, which gives the score of every query token against every document
  token, [256, 6144], regrouped as [256, 32, 192]. Where the query token's id equals the document token's id the
  score is kept, elsewhere it is replaced by the zero word; the maximum over the 192 document tokens, taken from the
  word of minus infinity, leaves [256, 32], regrouped as [8, 32, 32] (query, query token, document). The batched
  product with the weights [8, 1, 32] then sums over the query tokens, query by query, and the unit axis is dropped.

  Each non-pointwise operation is read at an index built from explicit coordinates, over variables; the theorem
  `pay10_apply` chains the readings: at query `b` and document `c` of the chunk the payload is
  `Σ l, w (b, 0, l) · max_j select (qid (32 b + l) = did (c, j)) (Σ e, q (32 b + l, e) · d (c, j, e)) 0`.
-/
import proofs.«147971_j15118284882567_2_alg».proof.Proof.Gen.KernelIdeal.Skeleton
import proofs.«147971_j15118284882567_2_alg».proof.Proof.LibDotTransposed
import proofs.«147971_j15118284882567_2_alg».proof.Proof.Row
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- Column `c * 192 + j` of the 6144 flattened document tokens: token `j` of document `c` of the chunk. -/
def col (c : Fin 32) (j : Fin 192) : Fin 6144 := ⟨c.val * 192 + j.val, by omega⟩

/-! ## The layout operations at an index

A reshape keeps the row-major position, so each one below is the equality of two positions written as sums; a
broadcast reads the operand at the coordinates it has, `0` on its unit axes. -/

section Layout
variable {α : Type}

/-- The document tokens flattened: row `c * 192 + j` of [6144, 32] is token `j` of document `c`. -/
theorem cast_tok (x : S32x192x32.Idx → α) (h : S32x192x32.ShapeCasts S6144x32) (c : Fin 32) (j : Fin 192) (e : Fin 32) :
    shapeCast S6144x32 x h (ix2 (col c j) e) = x (ix3 c j e) :=
  shapeCast_apply x h _ _ (by
    rw [Shape.rowMajor_val_three, Shape.rowMajor_val_two]
    show (c.val * 192 + j.val) * 32 + e.val = (c.val * 192 + j.val) * 32 + e.val
    rfl)

/-- The scores regrouped: (r, c, j) of [256, 32, 192] is column `c * 192 + j` of row `r` of [256, 6144]. -/
theorem cast_scores (x : S256x6144.Idx → α) (h : S256x6144.ShapeCasts S256x32x192) (r : Fin 256) (c : Fin 32) (j : Fin 192) :
    shapeCast S256x32x192 x h (ix3 r c j) = x (ix2 r (col c j)) :=
  shapeCast_apply x h _ _ (by
    rw [Shape.rowMajor_val_three, Shape.rowMajor_val_two]
    show r.val * 6144 + (c.val * 192 + j.val) = (r.val * 32 + c.val) * 192 + j.val
    omega)

/-- The document ids under a leading unit axis. -/
theorem cast_ids (x : S32x192.Idx → α) (h : S32x192.ShapeCasts S1x32x192) (z : Fin 1) (c : Fin 32) (j : Fin 192) :
    shapeCast S1x32x192 x h (ix3 z c j) = x (ix2 c j) :=
  shapeCast_apply x h _ _ (by
    rw [Shape.rowMajor_val_three, Shape.rowMajor_val_two]
    show c.val * 192 + j.val = (z.val * 32 + c.val) * 192 + j.val
    omega)

/-- The lane maxima regrouped: (b, l, c) of [8, 32, 32] is row `b * 32 + l`, column `c` of [256, 32]. -/
theorem cast_max (x : S256x32.Idx → α) (h : S256x32.ShapeCasts S8x32x32) (b : Fin 8) (l : Fin 32) (c : Fin 32) :
    shapeCast S8x32x32 x h (ix3 b l c) = x (ix2 (row b l) c) :=
  shapeCast_apply x h _ _ (by
    rw [Shape.rowMajor_val_three, Shape.rowMajor_val_two]
    show (b.val * 32 + l.val) * 32 + c.val = (b.val * 32 + l.val) * 32 + c.val
    rfl)

/-- The unit axis of the weighted sums dropped. -/
theorem cast_out (x : S8x1x32.Idx → α) (h : S8x1x32.ShapeCasts S8x32) (b : Fin 8) (c : Fin 32) :
    shapeCast S8x32 x h (ix2 b c) = x (ix3 b 0 c) :=
  shapeCast_apply x h _ _ (by
    rw [Shape.rowMajor_val_three, Shape.rowMajor_val_two]
    show (b.val * 1 + 0) * 32 + c.val = b.val * 32 + c.val
    omega)

/-- A reshape to the same shape reads the operand at the same index. -/
theorem cast_id {s : Shape} (x : s.Idx → α) (h : s.ShapeCasts s) (i : s.Idx) : shapeCast s x h i = x i :=
  shapeCast_apply x h i i rfl

/-- The query token ids [256, 1, 1] broadcast along documents and document tokens. -/
theorem bcast_qid (x : S256x1x1.Idx → α) (h : S256x1x1.Broadcasts S256x32x192) (r : Fin 256) (c : Fin 32) (j : Fin 192) :
    broadcastTo S256x32x192 x h (ix3 r c j) = x (ix3 r 0 0) :=
  broadcastTo_apply x h _ _ (fun a => by
    match a with
    | ⟨0, _⟩ => rfl
    | ⟨1, _⟩ => rfl
    | ⟨2, _⟩ => rfl)

/-- The document ids [1, 32, 192] broadcast along the query tokens. -/
theorem bcast_did (x : S1x32x192.Idx → α) (h : S1x32x192.Broadcasts S256x32x192) (r : Fin 256) (c : Fin 32) (j : Fin 192) :
    broadcastTo S256x32x192 x h (ix3 r c j) = x (ix3 0 c j) :=
  broadcastTo_apply x h _ _ (fun a => by
    match a with
    | ⟨0, _⟩ => rfl
    | ⟨1, _⟩ => rfl
    | ⟨2, _⟩ => rfl)

end Layout

/-! ## The lane maximum -/

/-- The maximum over the last axis at (r, c): the fold of `max`, from the accumulator's value, over the 192 lane
    coordinates of the source at (r, c, j). -/
theorem max_lane (x : FVec Ideal S256x32x192 .f32) (h : S256x32x192.Reduces [2] S256x32) (hφ : FKind.Formats .f32)
    (hacc : (0xFF800000#32 : BitVec 32) = FKind.maximumf.neutral .f32 hφ) (r : Fin 256) (c : Fin 32) :
    multiReduction .maximumf [2] S256x32 x 0xFF800000#32 h hφ hacc (ix2 r c)
      = (Finset.univ : Finset (Fin 192)).fold max (Ideal.ofBits .f32 0xFF800000#32) (fun j => x (ix3 r c j)) := by
  refine (Ideal.multiReduction_maximumf_single x _ h hφ hacc (ix2 r c)).trans ?_
  have e : (x ∘ h.lift (ix2 r c)) = fun j : Fin 192 => x (ix3 r c j) :=
    funext fun k => congrArg x (funext fun a => Fin.ext (by
      match a with
      | ⟨0, _⟩ => rfl
      | ⟨1, _⟩ => rfl
      | ⟨2, _⟩ => rfl))
  exact congrArg (fun f => (Finset.univ : Finset (Fin 192)).fold max (Ideal.ofBits .f32 0xFF800000#32) f) e

/-! ## The masked scores at an index -/

/-- The select between the regrouped scores and the zero word, on the equality of the two broadcast id arrays, at
    (r, c, j): the select on the equality of the query token's id and the document token's id, between the score at
    (r, c * 192 + j) and the zero word. -/
theorem masked_apply (qid : IVec S256x1x1 32) (did : IVec S32x192 32) (s : FVec Ideal S256x6144 .f32)
    (h1 : S256x1x1.Broadcasts S256x32x192) (h2 : S32x192.ShapeCasts S1x32x192) (h3 : S1x32x192.Broadcasts S256x32x192)
    (h4 : S256x6144.ShapeCasts S256x32x192) (r : Fin 256) (c : Fin 32) (j : Fin 192) :
    select (cmpi .eq (broadcastTo S256x32x192 qid h1) (broadcastTo S256x32x192 (shapeCast S1x32x192 did h2) h3))
        (shapeCast S256x32x192 s h4) (broadcast S256x32x192 (Scalar.ofBits (F := Ideal) .f32 0x00000000#32)) (ix3 r c j)
      = Scalar.select (IntOp.cmpi .eq (qid (ix3 r 0 0)) (did (ix2 c j))) (s (ix2 r (col c j))) (Ideal.ofBits .f32 0x00000000#32) := by
  show Scalar.select (IntOp.cmpi .eq (broadcastTo S256x32x192 qid h1 (ix3 r c j))
      (broadcastTo S256x32x192 (shapeCast S1x32x192 did h2) h3 (ix3 r c j))) (shapeCast S256x32x192 s h4 (ix3 r c j))
      (Ideal.ofBits .f32 0x00000000#32) = _
  rw [bcast_qid, bcast_did, cast_ids, cast_scores]

/-! ## The batched product of the weights with the lane maxima -/

/-! The batched product's operand indices: axis 0 is the batch axis of both operands and of the result, the weights'
axis 1 is the result's axis 1, the maxima's axis 2 is the result's axis 2, and the weights' axis 2 and the maxima's
axis 1 are contracted. -/

theorem wsum_lhs_0 (i : S8x1x32.Idx) (q : dot_S8x1x32_S8x32x32_S8x1x32_2_1_1_2_0_0.contr.Idx) :
    (dot_S8x1x32_S8x32x32_S8x1x32_2_1_1_2_0_0.lhsIdx i q 0).val = (i 0).val := by
  unfold DotDims.lhsIdx
  rw [dif_pos (show (0 : Fin S8x1x32.rank) ∈ dot_S8x1x32_S8x32x32_S8x1x32_2_1_1_2_0_0.lhsBatch by decide)]
  rfl
theorem wsum_lhs_1 (i : S8x1x32.Idx) (q : dot_S8x1x32_S8x32x32_S8x1x32_2_1_1_2_0_0.contr.Idx) :
    (dot_S8x1x32_S8x32x32_S8x1x32_2_1_1_2_0_0.lhsIdx i q 1).val = (i 1).val := by
  unfold DotDims.lhsIdx
  rw [dif_neg (show ¬(1 : Fin S8x1x32.rank) ∈ dot_S8x1x32_S8x32x32_S8x1x32_2_1_1_2_0_0.lhsBatch by decide),
    dif_pos (show (1 : Fin S8x1x32.rank) ∈ dot_S8x1x32_S8x32x32_S8x1x32_2_1_1_2_0_0.lhsNonContracting by decide)]
  rfl
theorem wsum_lhs_2 (i : S8x1x32.Idx) (q : dot_S8x1x32_S8x32x32_S8x1x32_2_1_1_2_0_0.contr.Idx) :
    (dot_S8x1x32_S8x32x32_S8x1x32_2_1_1_2_0_0.lhsIdx i q 2).val = (q ⟨0, by decide⟩).val :=
  dot_S8x1x32_S8x32x32_S8x1x32_2_1_1_2_0_0.lhsIdx_val_of_single rfl i q
theorem wsum_rhs_0 (i : S8x1x32.Idx) (q : dot_S8x1x32_S8x32x32_S8x1x32_2_1_1_2_0_0.contr.Idx) :
    (dot_S8x1x32_S8x32x32_S8x1x32_2_1_1_2_0_0.rhsIdx i q 0).val = (i 0).val := by
  unfold DotDims.rhsIdx
  rw [dif_pos (show (0 : Fin S8x32x32.rank) ∈ dot_S8x1x32_S8x32x32_S8x1x32_2_1_1_2_0_0.rhsBatch by decide)]
  rfl
theorem wsum_rhs_1 (i : S8x1x32.Idx) (q : dot_S8x1x32_S8x32x32_S8x1x32_2_1_1_2_0_0.contr.Idx) :
    (dot_S8x1x32_S8x32x32_S8x1x32_2_1_1_2_0_0.rhsIdx i q 1).val = (q ⟨0, by decide⟩).val :=
  dot_S8x1x32_S8x32x32_S8x1x32_2_1_1_2_0_0.rhsIdx_val_of_single rfl i q
theorem wsum_rhs_2 (i : S8x1x32.Idx) (q : dot_S8x1x32_S8x32x32_S8x1x32_2_1_1_2_0_0.contr.Idx) :
    (dot_S8x1x32_S8x32x32_S8x1x32_2_1_1_2_0_0.rhsIdx i q 2).val = (i 2).val := by
  unfold DotDims.rhsIdx
  rw [dif_neg (show ¬(2 : Fin S8x32x32.rank) ∈ dot_S8x1x32_S8x32x32_S8x1x32_2_1_1_2_0_0.rhsBatch by decide),
    dif_pos (show (2 : Fin S8x32x32.rank) ∈ dot_S8x1x32_S8x32x32_S8x1x32_2_1_1_2_0_0.rhsNonContracting by decide)]
  rfl

/-- The batched product into the zero accumulator at (b, 0, c): the sum over the contracted coordinate `l` of the
    weight at (b, 0, l) times the maximum at (b, l, c). -/
theorem wsum_apply (w : FVec Ideal S8x1x32 .f32) (m : FVec Ideal S8x32x32 .f32) (b : Fin 8) (c : Fin 32) :
    matmul dot_S8x1x32_S8x32x32_S8x1x32_2_1_1_2_0_0 none w m (constant S8x1x32 .f32 0x00000000#32) (ix3 b 0 c)
      = ∑ l : Fin 32, w (ix3 b 0 l) * m (ix3 b l c) := by
  show FloatOps.matmul dot_S8x1x32_S8x32x32_S8x1x32_2_1_1_2_0_0 none w m (constant S8x1x32 .f32 0x00000000#32) (ix3 b 0 c) = _
  rw [Ideal.matmul_constant_zero_apply,
    ← Equiv.sum_comp (contrEquiv1 dot_S8x1x32_S8x32x32_S8x1x32_2_1_1_2_0_0 32 rfl rfl).symm]
  refine Finset.sum_congr rfl fun l _ => ?_
  have hl := contrEquiv1_symm_val dot_S8x1x32_S8x32x32_S8x1x32_2_1_1_2_0_0 32 rfl rfl l
  have el : dot_S8x1x32_S8x32x32_S8x1x32_2_1_1_2_0_0.lhsIdx (ix3 b 0 c)
      ((contrEquiv1 dot_S8x1x32_S8x32x32_S8x1x32_2_1_1_2_0_0 32 rfl rfl).symm l) = ix3 b 0 l :=
    funext fun a => Fin.ext (by
      match a with
      | ⟨0, _⟩ => exact wsum_lhs_0 _ _
      | ⟨1, _⟩ => exact wsum_lhs_1 _ _
      | ⟨2, _⟩ => exact (wsum_lhs_2 _ _).trans hl)
  have er : dot_S8x1x32_S8x32x32_S8x1x32_2_1_1_2_0_0.rhsIdx (ix3 b 0 c)
      ((contrEquiv1 dot_S8x1x32_S8x32x32_S8x1x32_2_1_1_2_0_0 32 rfl rfl).symm l) = ix3 b l c :=
    funext fun a => Fin.ext (by
      match a with
      | ⟨0, _⟩ => exact wsum_rhs_0 _ _
      | ⟨1, _⟩ => exact (wsum_rhs_1 _ _).trans hl
      | ⟨2, _⟩ => exact wsum_rhs_2 _ _)
  rw [el, er]

/-! ## The product of the query tokens with the chunk's document tokens -/

/-! The left index keeps the result's row; the right index takes the result's column as its row. -/

theorem scores_lhs_0 (i : S256x6144.Idx) (q : dot_S256x32_S6144x32_S256x6144_1_1_0_0_n_n.contr.Idx) :
    (dot_S256x32_S6144x32_S256x6144_1_1_0_0_n_n.lhsIdx i q 0).val = (i 0).val := by
  unfold DotDims.lhsIdx
  rw [dif_neg (show ¬(0 : Fin S256x32.rank) ∈ dot_S256x32_S6144x32_S256x6144_1_1_0_0_n_n.lhsBatch by decide),
    dif_pos (show (0 : Fin S256x32.rank) ∈ dot_S256x32_S6144x32_S256x6144_1_1_0_0_n_n.lhsNonContracting by decide)]
  rfl
theorem scores_rhs_0 (i : S256x6144.Idx) (q : dot_S256x32_S6144x32_S256x6144_1_1_0_0_n_n.contr.Idx) :
    (dot_S256x32_S6144x32_S256x6144_1_1_0_0_n_n.rhsIdx i q 0).val = (i 1).val := by
  unfold DotDims.rhsIdx
  rw [dif_neg (show ¬(0 : Fin S6144x32.rank) ∈ dot_S256x32_S6144x32_S256x6144_1_1_0_0_n_n.rhsBatch by decide),
    dif_pos (show (0 : Fin S6144x32.rank) ∈ dot_S256x32_S6144x32_S256x6144_1_1_0_0_n_n.rhsNonContracting by decide)]
  rfl

/-- The scores at (r, m): the dot product of query token `r` with document token `m`. -/
theorem scores_apply (q : FVec Ideal S256x32 .bf16) (t : FVec Ideal S6144x32 .bf16) (r : Fin 256) (m : Fin 6144) :
    matmul dot_S256x32_S6144x32_S256x6144_1_1_0_0_n_n none q t (constant S256x6144 .f32 0x00000000#32) (ix2 r m)
      = ∑ e : Fin 32, q (ix2 r e) * t (ix2 m e) :=
  Cert.LibDotTransposed.matmul_zero_apply dot_S256x32_S6144x32_S256x6144_1_1_0_0_n_n rfl rfl scores_lhs_0 scores_rhs_0
    rfl rfl none q t r m

/-! ## The chunk's payload at an index -/

/-- The third chunk's payload at query `b` and document `c` of the chunk. -/
theorem pay10_apply (v2 : FVec Ideal S256x32 .bf16) (v4 : IVec S256x1x1 32) (v7 : FVec Ideal S8x1x32 .f32)
    (v46 : Vec Ideal S32x192x32 .bf16) (v49 : Vec Ideal S32x192 .i32) (b : Fin 8) (c : Fin 32) :
    k0_pay10 (F := Ideal) v2 v4 v7 v46 v49 (ix2 b c)
      = ∑ l : Fin 32, v7 (ix3 b 0 l) *
          (Finset.univ : Finset (Fin 192)).fold max (Ideal.ofBits .f32 0xFF800000#32) (fun j =>
            Scalar.select (IntOp.cmpi .eq (v4 (ix3 (row b l) 0 0)) (v49 (ix2 c j)))
              (∑ e : Fin 32, v2 (ix2 (row b l) e) * v46 (ix3 c j e)) (Ideal.ofBits .f32 0x00000000#32)) := by
  unfold k0_pay10
  refine (cast_id _ _ _).trans ?_
  refine (cast_out _ _ b c).trans ?_
  refine (wsum_apply _ _ b c).trans ?_
  refine Finset.sum_congr rfl fun l _ => congrArg (fun y => v7 (ix3 b 0 l) * y) ?_
  refine (cast_max _ _ b l c).trans ?_
  refine (max_lane _ _ _ _ (row b l) c).trans ?_
  refine congrArg (fun f => (Finset.univ : Finset (Fin 192)).fold max (Ideal.ofBits .f32 0xFF800000#32) f)
    (funext fun j => ?_)
  refine (masked_apply _ _ _ _ _ _ _ (row b l) c j).trans ?_
  refine congrArg (fun y => Scalar.select (IntOp.cmpi .eq (v4 (ix3 (row b l) 0 0)) (v49 (ix2 c j))) y
    (Ideal.ofBits .f32 0x00000000#32)) ?_
  refine (scores_apply _ _ (row b l) (col c j)).trans ?_
  refine Finset.sum_congr rfl fun e _ => congrArg (fun y => v2 (ix2 (row b l) e) * y) ?_
  refine (cast_tok _ _ c j e).trans ?_
  exact cast_id _ _ _

end Cert.KernelIdeal.Body

end
-- ==== Proof.BodyValue.lean ====
/-
  The kernel body's output block, read at an index, on the extended reals.

  For the block's query `b` (of 8) and document `n` (of 128) the output holds
  `Σ l, w (b, l) · tok (b, l, n) + Σ k, qc (b, k) · dc (n, k)`, where `tok (b, l, n)` is the maximum over the 192
  tokens `j` of document `n` of the dot product of query token `(b, l)` with document token `(n, j)` where their
  ids agree and of the zero word elsewhere. The first sum is what the scratch buffer holds: the chunk that treats
  documents `32 k … 32 k + 31` stores exactly the columns `32 k … 32 k + 31` of that one function, so the four stores
  together leave the function itself. The second sum is the product of the sentence embeddings.
-/
import proofs.«147971_j15118284882567_2_alg».proof.Proof.BodyPieces
import proofs.«147971_j15118284882567_2_alg».proof.Proof.BodyReshape
import proofs.«147971_j15118284882567_2_alg».proof.Proof.Chunk

set_option maxRecDepth 16384

noncomputable section

open scoped BigOperators

namespace Cert.KernelIdeal.Body

open Cert.KernelIdeal Cert.KernelIdeal.Gen Idealize.ShloMosaic Idealize.ShloMosaic.ValueIdx

/-- The block's token score of query token `(b, l)` against document `n`. -/
def blockTok (x0 : Vec Ideal S8x32x32 .bf16) (x1 : Vec Ideal S8x32 .i32) (x4 : Vec Ideal S128x192x32 .bf16)
    (x5 : Vec Ideal S128x192 .i32) (b : Fin 8) (l : Fin 32) (n : Fin 128) : EReal :=
  (Finset.univ : Finset (Fin 192)).fold max (Ideal.ofBits .f32 0xFF800000#32) (fun j =>
    Scalar.select (IntOp.cmpi .eq (x1 (ix2 b l)) (x5 (ix2 n j)))
      (∑ e : Fin 32, x0 (ix3 b l e) * x4 (ix3 n j e)) (Ideal.ofBits .f32 0x00000000#32))

/-- The weighted sum of the token scores over the 32 query positions. -/
def blockAcc (x0 : Vec Ideal S8x32x32 .bf16) (x1 : Vec Ideal S8x32 .i32) (x2 : Vec Ideal S8x32 .f32)
    (x4 : Vec Ideal S128x192x32 .bf16) (x5 : Vec Ideal S128x192 .i32) (b : Fin 8) (n : Fin 128) : EReal :=
  ∑ l : Fin 32, x2 (ix2 b l) * blockTok x0 x1 x4 x5 b l n

/-- The product of the sentence embeddings. -/
def blockCls (x3 : Vec Ideal S8x768 .bf16) (x6 : Vec Ideal S128x768 .bf16) (b : Fin 8) (n : Fin 128) : EReal :=
  ∑ k : Fin 768, x3 (ix2 b k) * x6 (ix2 n k)

/-! ## The product of the sentence embeddings -/

theorem cls_lhs_0 (i : S8x128.Idx) (q : dot_S8x768_S128x768_S8x128_1_1_0_0_n_n.contr.Idx) :
    (dot_S8x768_S128x768_S8x128_1_1_0_0_n_n.lhsIdx i q 0).val = (i 0).val := by
  unfold DotDims.lhsIdx
  rw [dif_neg (show ¬(0 : Fin S8x768.rank) ∈ dot_S8x768_S128x768_S8x128_1_1_0_0_n_n.lhsBatch by decide),
    dif_pos (show (0 : Fin S8x768.rank) ∈ dot_S8x768_S128x768_S8x128_1_1_0_0_n_n.lhsNonContracting by decide)]
  rfl
theorem cls_rhs_0 (i : S8x128.Idx) (q : dot_S8x768_S128x768_S8x128_1_1_0_0_n_n.contr.Idx) :
    (dot_S8x768_S128x768_S8x128_1_1_0_0_n_n.rhsIdx i q 0).val = (i 1).val := by
  unfold DotDims.rhsIdx
  rw [dif_neg (show ¬(0 : Fin S128x768.rank) ∈ dot_S8x768_S128x768_S8x128_1_1_0_0_n_n.rhsBatch by decide),
    dif_pos (show (0 : Fin S128x768.rank) ∈ dot_S8x768_S128x768_S8x128_1_1_0_0_n_n.rhsNonContracting by decide)]
  rfl

/-- The last step at `(b, n)`: what the scratch buffer holds there plus the dot product of query `b`'s sentence
    embedding with document `n`'s. -/
theorem pay2_apply (x3 : Vec Ideal S8x768 .bf16) (x6 : Vec Ideal S128x768 .bf16) (s : Vec Ideal S8x128 .f32)
    (b : Fin 8) (n : Fin 128) :
    k0_pay2 (F := Ideal) x3 x6 s (ix2 b n) = s (ix2 b n) + blockCls x3 x6 b n := by
  unfold k0_pay2 blockCls
  refine (addf_apply _ _ _).trans (congrArg (fun y => s (ix2 b n) + y) ?_)
  rw [shapeCast_self, shapeCast_self]
  exact Cert.LibDotTransposed.matmul_zero_apply dot_S8x768_S128x768_S8x128_1_1_0_0_n_n rfl rfl cls_lhs_0 cls_rhs_0
    rfl rfl none x3 x6 b n

/-! ## One chunk in the block's own arrays -/

/-- The chunk that starts at document `o`, at query `b` and the chunk's document `c`, is the weighted sum at
    document `o + c`: the chunk's slices of the document embeddings and ids read the arrays `o` rows down, and
    the flattened query arrays read the block's at `(b, l)`. -/
theorem chunk_apply (x0 : Vec Ideal S8x32x32 .bf16) (x1 : Vec Ideal S8x32 .i32) (x2 : Vec Ideal S8x32 .f32)
    (x4 : Vec Ideal S128x192x32 .bf16) (x5 : Vec Ideal S128x192 .i32) (o : Nat)
    (inb4 : ∀ a, (![o, 0, 0] : Fin 3 → Nat) a + S32x192x32.size a ≤ S128x192x32.size a)
    (inb5 : ∀ a, (![o, 0] : Fin 2 → Nat) a + S32x192.size a ≤ S128x192.size a)
    (b : Fin 8) (c : Fin 32) (h : o + c.val < 128) :
    k0_pay10 (F := Ideal) (k0_pay3 x0) (k0_pay4 x1) (k0_pay5 x2)
        (View.ld x4 (Rect.unit (s := S128x192x32) ![o, 0, 0] S32x192x32.size inb4))
        (View.ld x5 (Rect.unit (s := S128x192) ![o, 0] S32x192.size inb5)) (ix2 b c)
      = blockAcc x0 x1 x2 x4 x5 b ⟨o + c.val, h⟩ := by
  refine (pay10_apply _ _ _ _ _ b c).trans ?_
  unfold blockAcc blockTok
  refine Finset.sum_congr rfl fun l _ => ?_
  rw [pay5_apply, pay4_apply]
  refine congrArg (fun y => x2 (ix2 b l) * y) ?_
  refine congrArg (fun f => (Finset.univ : Finset (Fin 192)).fold max (Ideal.ofBits .f32 0xFF800000#32) f)
    (funext fun j => ?_)
  have e5 : View.ld x5 (Rect.unit (s := S128x192) ![o, 0] S32x192.size inb5) (ix2 c j) = x5 (ix2 ⟨o + c.val, h⟩ j) :=
    congrArg x5 (funext fun a => Fin.ext (by
      match a with
      | ⟨0, _⟩ => show o + 1 * c.val = o + c.val; omega
      | ⟨1, _⟩ => show 0 + 1 * j.val = j.val; omega))
  have e4 : ∀ e : Fin 32, View.ld x4 (Rect.unit (s := S128x192x32) ![o, 0, 0] S32x192x32.size inb4) (ix3 c j e)
      = x4 (ix3 ⟨o + c.val, h⟩ j e) := fun e =>
    congrArg x4 (funext fun a => Fin.ext (by
      match a with
      | ⟨0, _⟩ => show o + 1 * c.val = o + c.val; omega
      | ⟨1, _⟩ => show 0 + 1 * j.val = j.val; omega
      | ⟨2, _⟩ => show 0 + 1 * e.val = e.val; omega))
  rw [e5]
  refine congrArg (fun y => Scalar.select (IntOp.cmpi .eq (x1 (ix2 b l)) (x5 (ix2 ⟨o + c.val, h⟩ j))) y
    (Ideal.ofBits .f32 0x00000000#32)) ?_
  refine Finset.sum_congr rfl fun e _ => ?_
  rw [pay3_apply, e4]

end Cert.KernelIdeal.Body

end
-- ==== Proof.BodyBlock.lean ====
/-
  The output block of the kernel body as one function of the block's query `b` and document `n`.

  Each of the four stores into the scratch buffer writes the columns `o … o + 31` (`o` = 0, 32, 64, 96) of one and the
  same function of `(b, n)` — the weighted sum of the token scores, `blockAcc` —, and the four column ranges fill
  the 128 columns. So the buffer read back is that function, whatever the order of the stores, and the output block is
  it plus the product of the sentence embeddings.
-/
import proofs.«147971_j15118284882567_2_alg».proof.Proof.BodyValue

set_option maxRecDepth 16384

noncomputable section

open scoped BigOperators

namespace Cert.KernelIdeal.Body

open Cert.KernelIdeal Cert.KernelIdeal.Gen Idealize.ShloMosaic Idealize.ShloMosaic.ValueIdx Idealize.ShloMosaic.Tactic

section
variable (x0 : Vec Ideal S8x32x32 .bf16) (x1 : Vec Ideal S8x32 .i32) (x2 : Vec Ideal S8x32 .f32)
  (x3 : Vec Ideal S8x768 .bf16) (x4 : Vec Ideal S128x192x32 .bf16) (x5 : Vec Ideal S128x192 .i32)
  (x6 : Vec Ideal S128x768 .bf16)

/-- The weighted sum of the token scores as a function of the scratch buffer's index. -/
def accFn : S8x128.Idx → EReal := fun y =>
  blockAcc x0 x1 x2 x4 x5 ⟨(y 0).val, idx2_lt0 y⟩ ⟨(y 1).val, idx2_lt1 y⟩

/-- A store of the columns `o … o + 31` whose value at `(b, c)` is the weighted sum at document `o + c` writes those
    columns of `accFn`. -/
theorem piece_ok (o : Nat) (ho : o + 32 ≤ 128)
    (inb : ∀ a, (![0, o] : Fin 2 → Nat) a + S8x32.size a ≤ S8x128.size a) (w : Vec Ideal S8x32 .f32)
    (hw : ∀ (b : Fin 8) (c : Fin 32) (h : o + c.val < 128), w (ix2 b c) = blockAcc x0 x1 x2 x4 x5 b ⟨o + c.val, h⟩)
    (x : (Rect.unit (s := S8x128) ![0, o] S8x32.size inb).shape.Idx) :
    w x = accFn x0 x1 x2 x4 x5 ((Rect.unit (s := S8x128) ![0, o] S8x32.size inb).emb x) := by
  obtain ⟨b, c, rfl⟩ : ∃ (b : Fin 8) (c : Fin 32), x = ix2 b c := ⟨x 0, x 1, eq_ix2 x⟩
  have hc : o + c.val < 128 := by have := c.isLt; omega
  rw [hw b c hc]
  unfold accFn
  congr 1
  · exact Fin.ext (by show b.val = 0 + 1 * b.val; omega)
  · exact Fin.ext (by show o + c.val = o + 1 * c.val; omega)

/-- Column `n` of row `b` lies in the column range `o … o + 31` when `o ≤ n < o + 32`. -/
theorem mem_cols (o : Nat) (inb : ∀ a, (![0, o] : Fin 2 → Nat) a + S8x32.size a ≤ S8x128.size a) (b : Fin 8) (n : Fin 128)
    (h1 : o ≤ n.val) (h2 : n.val < o + 32) :
    (ix2 b n : S8x128.Idx) ∈ (Rect.unit (s := S8x128) ![0, o] S8x32.size inb).set :=
  Rect.mem_set_unit.mpr (fun a => by
    match a with
    | ⟨0, _⟩ => exact ⟨Nat.zero_le _, by show b.val < 0 + 8; omega⟩
    | ⟨1, _⟩ => exact ⟨h1, by show n.val < o + 32; exact h2⟩)

/-- The scratch buffer after its four stores, at `(b, n)`: the weighted sum of the token scores. -/
theorem scratch_apply (b : Fin 8) (n : Fin 128) :
    scratch (F := Ideal) x0 x1 x2 x4 x5 (ix2 b n) = blockAcc x0 x1 x2 x4 x5 b n := by
  unfold scratch
  refine (View.canon_apply_of_pieces (accFn x0 x1 x2 x4 x5) (scratchPieces x0 x1 x2 x4 x5) ?_ (ix2 b n) ?_).trans rfl
  · intro p hp x
    simp only [scratchPieces, List.mem_cons, List.not_mem_nil, or_false] at hp
    rcases hp with rfl | rfl | rfl | rfl
    · exact piece_ok x0 x1 x2 x4 x5 96 (by omega) inb_S8x128_S8x32_0_96 _ (fun b c h =>
        (congrFun (pay1_eq x0 x1 x2 _ _) _).trans (chunk_apply x0 x1 x2 x4 x5 96
          inb_S128x192x32_S32x192x32_96_0_0 inb_S128x192_S32x192_96_0 b c h)) x
    · exact piece_ok x0 x1 x2 x4 x5 64 (by omega) inb_S8x128_S8x32_0_64 _ (fun b c h =>
        chunk_apply x0 x1 x2 x4 x5 64 inb_S128x192x32_S32x192x32_64_0_0 inb_S128x192_S32x192_64_0 b c h) x
    · exact piece_ok x0 x1 x2 x4 x5 32 (by omega) inb_S8x128_S8x32_0_32 _ (fun b c h =>
        (congrFun (pay9_eq x0 x1 x2 _ _) _).trans (chunk_apply x0 x1 x2 x4 x5 32
          inb_S128x192x32_S32x192x32_32_0_0 inb_S128x192_S32x192_32_0 b c h)) x
    · exact piece_ok x0 x1 x2 x4 x5 0 (by omega) inb_S8x128_S8x32_0_0 _ (fun b c h =>
        (congrFun (pay6_eq x0 x1 x2 _ _) _).trans (chunk_apply x0 x1 x2 x4 x5 0
          inb_S128x192x32_S32x192x32_0_0_0 inb_S128x192_S32x192_0_0 b c h)) x
  · unfold scratchPieces
    have hn := n.isLt
    rcases (by omega : n.val < 32 ∨ (32 ≤ n.val ∧ n.val < 64) ∨ (64 ≤ n.val ∧ n.val < 96) ∨ 96 ≤ n.val)
      with h | h | h | h
    · exact ⟨_, List.mem_cons_of_mem _ (List.mem_cons_of_mem _ (List.mem_cons_of_mem _ List.mem_cons_self)),
        mem_cols 0 inb_S8x128_S8x32_0_0 b n (by omega) (by omega)⟩
    · exact ⟨_, List.mem_cons_of_mem _ (List.mem_cons_of_mem _ List.mem_cons_self),
        mem_cols 32 inb_S8x128_S8x32_0_32 b n (by omega) (by omega)⟩
    · exact ⟨_, List.mem_cons_of_mem _ List.mem_cons_self,
        mem_cols 64 inb_S8x128_S8x32_0_64 b n (by omega) (by omega)⟩
    · exact ⟨_, List.mem_cons_self, mem_cols 96 inb_S8x128_S8x32_0_96 b n (by omega) (by omega)⟩

/-- The block's score of query `b` against document `n`. -/
def blockScore (b : Fin 8) (n : Fin 128) : EReal :=
  blockAcc x0 x1 x2 x4 x5 b n + blockCls x3 x6 b n

/-- The output block at `(b, n)`. -/
theorem bodyOut_apply (b : Fin 8) (n : Fin 128) :
    bodyOut (F := Ideal) x0 x1 x2 x3 x4 x5 x6 (ix2 b n) = blockScore x0 x1 x2 x3 x4 x5 x6 b n := by
  unfold bodyOut blockScore
  rw [pay2_apply, scratch_apply]

end

end Cert.KernelIdeal.Body

end
-- ==== Proof.Spec.lean ====
/-
  The score both programs compute, as one function of the argument arrays, index by index, on the extended reals.

  For query `q`, query position `l`, document `d` and document position `j` the token similarity is the dot
  product of the two 32-dimensional token embeddings, kept where the two token ids are equal and replaced by `0`
  elsewhere; the token score of `(q, l, d)` is the maximum of these over the 192 document positions (a fold of
  `max` from `-∞`). A query's score against a document is the sum over the query positions of the position's
  weight times its token score, plus the dot product of the two 768-dimensional sentence embeddings.

  The two programs differ in the weights only: one sums over all 32 positions with weights whose entry at
  position 0 is zero, the other over positions 1..31. `WeightedSum.lean` has the law that joins them.
-/
import Idealize.ShloMosaic.PureOps.Ideal
import Idealize.ShloMosaic.Lib.ValueIdx

noncomputable section

namespace Cert.Bridge

open Idealize.ShloMosaic Idealize.ShloMosaic.ValueIdx
open scoped BigOperators

/-- Query token embeddings `[64, 32, 32]`, document token embeddings `[128, 192, 32]`. -/
abbrev QTok : Shape := ⟨3, ![64, 32, 32]⟩
abbrev DTok : Shape := ⟨3, ![128, 192, 32]⟩
/-- Query sentence embeddings `[64, 768]`, document sentence embeddings `[128, 768]`. -/
abbrev QCls : Shape := ⟨2, ![64, 768]⟩
abbrev DCls : Shape := ⟨2, ![128, 768]⟩
/-- Query token ids and weights `[64, 32]`, document token ids `[128, 192]`, the scores `[64, 128]`. -/
abbrev QIds : Shape := ⟨2, ![64, 32]⟩
abbrev DIds : Shape := ⟨2, ![128, 192]⟩
abbrev Out : Shape := ⟨2, ![64, 128]⟩

/-- The dot product of query `q`'s token `l` with document `d`'s token `j`. -/
def sim (qt : QTok.Idx → EReal) (dt : DTok.Idx → EReal) (q : Fin 64) (l : Fin 32) (d : Fin 128) (j : Fin 192) : EReal :=
  ∑ e : Fin 32, qt (ix3 q l e) * dt (ix3 d j e)

/-- The similarity where the two token ids are equal, `0` elsewhere. -/
def masked (qt : QTok.Idx → EReal) (dt : DTok.Idx → EReal) (qid : QIds.Idx → BitVec 32) (did : DIds.Idx → BitVec 32)
    (q : Fin 64) (l : Fin 32) (d : Fin 128) (j : Fin 192) : EReal :=
  Scalar.select (IntOp.cmpi .eq (qid (ix2 q l)) (did (ix2 d j))) (sim qt dt q l d j) (Ideal.ofBits .f32 0x00000000#32)

/-- The token score: the maximum over the document's 192 positions, from `-∞`. -/
def tok (qt : QTok.Idx → EReal) (dt : DTok.Idx → EReal) (qid : QIds.Idx → BitVec 32) (did : DIds.Idx → BitVec 32)
    (q : Fin 64) (l : Fin 32) (d : Fin 128) : EReal :=
  (Finset.univ : Finset (Fin 192)).fold max (Ideal.ofBits .f32 0xFF800000#32) (masked qt dt qid did q l d)

/-- The dot product of the two sentence embeddings. -/
def cls (qc : QCls.Idx → EReal) (dc : DCls.Idx → EReal) (q : Fin 64) (d : Fin 128) : EReal :=
  ∑ k : Fin 768, qc (ix2 q k) * dc (ix2 d k)

/-- The score of query `q` against document `d` with all 32 query positions weighted by `w`. -/
def scoreAll (qt : QTok.Idx → EReal) (dt : DTok.Idx → EReal) (qc : QCls.Idx → EReal) (dc : DCls.Idx → EReal)
    (qid : QIds.Idx → BitVec 32) (did : DIds.Idx → BitVec 32) (w : QIds.Idx → EReal) (q : Fin 64) (d : Fin 128) : EReal :=
  (∑ l : Fin 32, w (ix2 q l) * tok qt dt qid did q l d) + cls qc dc q d

/-- The score with query positions 1..31 weighted by `w`, position 0 left out. -/
def scoreTail (qt : QTok.Idx → EReal) (dt : DTok.Idx → EReal) (qc : QCls.Idx → EReal) (dc : DCls.Idx → EReal)
    (qid : QIds.Idx → BitVec 32) (did : DIds.Idx → BitVec 32) (w : QIds.Idx → EReal) (q : Fin 64) (d : Fin 128) : EReal :=
  (∑ k : Fin 31, w (ix2 q k.succ) * tok qt dt qid did q k.succ d) + cls qc dc q d

/-- With weights that vanish at position 0 and agree at positions 1..31 the two scores are one number: the
    term at position 0 is `0 * x = 0` whatever the token score `x` is, an infinity included. -/
theorem scoreAll_eq_scoreTail (qt : QTok.Idx → EReal) (dt : DTok.Idx → EReal) (qc : QCls.Idx → EReal) (dc : DCls.Idx → EReal)
    (qid : QIds.Idx → BitVec 32) (did : DIds.Idx → BitVec 32) (w w' : QIds.Idx → EReal) (q : Fin 64) (d : Fin 128)
    (h0 : w (ix2 q 0) = 0) (ht : ∀ k : Fin 31, w (ix2 q k.succ) = w' (ix2 q k.succ)) :
    scoreAll qt dt qc dc qid did w q d = scoreTail qt dt qc dc qid did w' q d := by
  unfold scoreAll scoreTail
  rw [Fin.sum_univ_succ (n := 31), h0, zero_mul, zero_add]
  simp only [ht]

end Cert.Bridge

end
-- ==== Proof.BlockSpec.lean ====
/-
  A block's score is the specification's score at the block's place in the arrays.

  Grid point `T` (of 8) treats queries `8 T … 8 T + 7`: its blocks of the query-side arrays are those 8 rows, and its
  blocks of the document-side arrays are the whole arrays. Read through these facts, the block's score of its query
  `b` against document `n` is the specification's score of query `8 T + b` against document `n`, term by term.
-/
import proofs.«147971_j15118284882567_2_alg».proof.Proof.BodyBlock
import proofs.«147971_j15118284882567_2_alg».proof.Proof.Spec

noncomputable section

open scoped BigOperators

namespace Cert.KernelIdeal.Body

open Cert.KernelIdeal Idealize.ShloMosaic Idealize.ShloMosaic.ValueIdx

/-- The block's score at `(b, n)` is `scoreAll` at `(8 T + b, n)`, given what the seven blocks read of the arrays. -/
theorem blockScore_eq (x0 : Vec Ideal S8x32x32 .bf16) (x1 : Vec Ideal S8x32 .i32) (x2 : Vec Ideal S8x32 .f32)
    (x3 : Vec Ideal S8x768 .bf16) (x4 : Vec Ideal S128x192x32 .bf16) (x5 : Vec Ideal S128x192 .i32)
    (x6 : Vec Ideal S128x768 .bf16)
    (qt : Cert.Bridge.QTok.Idx → EReal) (dt : Cert.Bridge.DTok.Idx → EReal) (qc : Cert.Bridge.QCls.Idx → EReal)
    (dc : Cert.Bridge.DCls.Idx → EReal) (qid : Cert.Bridge.QIds.Idx → BitVec 32) (did : Cert.Bridge.DIds.Idx → BitVec 32)
    (w : Cert.Bridge.QIds.Idx → EReal) (T : Nat) (hT : T < 8)
    (h0 : ∀ (b : Fin 8) (l e : Fin 32), x0 (ix3 b l e) = qt (ix3 (⟨T * 8 + b.val, by omega⟩ : Fin 64) l e))
    (h1 : ∀ (b : Fin 8) (l : Fin 32), x1 (ix2 b l) = qid (ix2 (⟨T * 8 + b.val, by omega⟩ : Fin 64) l))
    (h2 : ∀ (b : Fin 8) (l : Fin 32), x2 (ix2 b l) = w (ix2 (⟨T * 8 + b.val, by omega⟩ : Fin 64) l))
    (h3 : ∀ (b : Fin 8) (k : Fin 768), x3 (ix2 b k) = qc (ix2 (⟨T * 8 + b.val, by omega⟩ : Fin 64) k))
    (h4 : ∀ (n : Fin 128) (j : Fin 192) (e : Fin 32), x4 (ix3 n j e) = dt (ix3 n j e))
    (h5 : ∀ (n : Fin 128) (j : Fin 192), x5 (ix2 n j) = did (ix2 n j))
    (h6 : ∀ (n : Fin 128) (k : Fin 768), x6 (ix2 n k) = dc (ix2 n k))
    (b : Fin 8) (n : Fin 128) :
    blockScore x0 x1 x2 x3 x4 x5 x6 b n
      = Cert.Bridge.scoreAll qt dt qc dc qid did w (⟨T * 8 + b.val, by omega⟩ : Fin 64) n := by
  unfold blockScore blockAcc blockTok blockCls Cert.Bridge.scoreAll Cert.Bridge.tok Cert.Bridge.masked Cert.Bridge.sim
    Cert.Bridge.cls
  simp only [h0, h1, h2, h3, h4, h5, h6]

end Cert.KernelIdeal.Body

end
-- ==== Proof.KernelArray.lean ====
/-
  The kernel's result array after the run, as one function of the arrays the region finds.

  The grid has 8 points; point `t` reads rows `8 t … 8 t + 7` of the four query-side arrays (token embeddings, token
  ids, position weights, sentence embeddings), the three document-side arrays whole, and writes rows
  `8 t … 8 t + 7` of the [64, 128] result. What it writes at `(b, n)` is the block's score, which is the
  specification's score of query `8 t + b` against document `n` on the arrays themselves; the 8 row blocks fill
  the result, so the result array is that score at every index.
-/
import proofs.«147971_j15118284882567_2_alg».proof.Proof.Gen.KernelIdeal.Value
import proofs.«147971_j15118284882567_2_alg».proof.Proof.BlockSpec

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the grid: the query-side windows and the result move one block of 8 rows per
    point, the document-side windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 8 := lt_of_lt_of_eq t.isLt N_0

/-! ## What each input block reads of its array -/

theorem blk0 (c : Dev nD) (t : Fin cfg0.N) (b : Fin 8) (l e : Fin 32) :
    iblk m c 0 t (ix3 b l e)
      = (V m c main_v23 : S64x32x32.Idx → EReal) (ix3 (⟨t.val * 8 + b.val, by have := t_lt t; omega⟩ : Fin 64) l e) := by
  obtain ⟨e0, e1, e2, -⟩ := idx_facts t
  show V m c main_v23 (((cfg0.win 0).blk t).view.emb (ix3 b l e)) = _
  refine congrArg _ (funext fun a => Fin.ext ?_)
  match a with
  | ⟨0, _⟩ => show win0_0.index t (0 : Fin 3) * 8 + 1 * b.val = t.val * 8 + b.val; omega
  | ⟨1, _⟩ => show win0_0.index t (1 : Fin 3) * 32 + 1 * l.val = l.val; omega
  | ⟨2, _⟩ => show win0_0.index t (2 : Fin 3) * 32 + 1 * e.val = e.val; omega

theorem blk1 (c : Dev nD) (t : Fin cfg0.N) (b : Fin 8) (l : Fin 32) :
    iblk m c 1 t (ix2 b l)
      = (V m c main_arg4 : S64x32.Idx → BitVec 32) (ix2 (⟨t.val * 8 + b.val, by have := t_lt t; omega⟩ : Fin 64) l) := by
  obtain ⟨-, -, -, e0, e1, -⟩ := idx_facts t
  show V m c main_arg4 (((cfg0.win 1).blk t).view.emb (ix2 b l)) = _
  refine congrArg _ (funext fun a => Fin.ext ?_)
  match a with
  | ⟨0, _⟩ => show win0_1.index t (0 : Fin 2) * 8 + 1 * b.val = t.val * 8 + b.val; omega
  | ⟨1, _⟩ => show win0_1.index t (1 : Fin 2) * 32 + 1 * l.val = l.val; omega

theorem blk2 (c : Dev nD) (t : Fin cfg0.N) (b : Fin 8) (l : Fin 32) :
    iblk m c 2 t (ix2 b l)
      = (V m c main_v22 : S64x32.Idx → EReal) (ix2 (⟨t.val * 8 + b.val, by have := t_lt t; omega⟩ : Fin 64) l) := by
  obtain ⟨-, -, -, -, -, e0, e1, -⟩ := idx_facts t
  show V m c main_v22 (((cfg0.win 2).blk t).view.emb (ix2 b l)) = _
  refine congrArg _ (funext fun a => Fin.ext ?_)
  match a with
  | ⟨0, _⟩ => show win0_2.index t (0 : Fin 2) * 8 + 1 * b.val = t.val * 8 + b.val; omega
  | ⟨1, _⟩ => show win0_2.index t (1 : Fin 2) * 32 + 1 * l.val = l.val; omega

theorem blk3 (c : Dev nD) (t : Fin cfg0.N) (b : Fin 8) (k : Fin 768) :
    iblk m c 3 t (ix2 b k)
      = (V m c main_v25 : S64x768.Idx → EReal) (ix2 (⟨t.val * 8 + b.val, by have := t_lt t; omega⟩ : Fin 64) k) := by
  obtain ⟨-, -, -, -, -, -, -, e0, e1, -⟩ := idx_facts t
  show V m c main_v25 (((cfg0.win 3).blk t).view.emb (ix2 b k)) = _
  refine congrArg _ (funext fun a => Fin.ext ?_)
  match a with
  | ⟨0, _⟩ => show win0_3.index t (0 : Fin 2) * 8 + 1 * b.val = t.val * 8 + b.val; omega
  | ⟨1, _⟩ => show win0_3.index t (1 : Fin 2) * 768 + 1 * k.val = k.val; omega

theorem blk4 (c : Dev nD) (t : Fin cfg0.N) (n : Fin 128) (j : Fin 192) (e : Fin 32) :
    iblk m c 4 t (ix3 n j e) = (V m c main_v24 : S128x192x32.Idx → EReal) (ix3 n j e) := by
  obtain ⟨-, -, -, -, -, -, -, -, -, e0, e1, e2, -⟩ := idx_facts t
  show V m c main_v24 (((cfg0.win 4).blk t).view.emb (ix3 n j e)) = _
  refine congrArg _ (funext fun a => Fin.ext ?_)
  match a with
  | ⟨0, _⟩ => show win0_4.index t (0 : Fin 3) * 128 + 1 * n.val = n.val; omega
  | ⟨1, _⟩ => show win0_4.index t (1 : Fin 3) * 192 + 1 * j.val = j.val; omega
  | ⟨2, _⟩ => show win0_4.index t (2 : Fin 3) * 32 + 1 * e.val = e.val; omega

theorem blk5 (c : Dev nD) (t : Fin cfg0.N) (n : Fin 128) (j : Fin 192) :
    iblk m c 5 t (ix2 n j) = (V m c main_arg5 : S128x192.Idx → BitVec 32) (ix2 n j) := by
  obtain ⟨-, -, -, -, -, -, -, -, -, -, -, -, e0, e1, -⟩ := idx_facts t
  show V m c main_arg5 (((cfg0.win 5).blk t).view.emb (ix2 n j)) = _
  refine congrArg _ (funext fun a => Fin.ext ?_)
  match a with
  | ⟨0, _⟩ => show win0_5.index t (0 : Fin 2) * 128 + 1 * n.val = n.val; omega
  | ⟨1, _⟩ => show win0_5.index t (1 : Fin 2) * 192 + 1 * j.val = j.val; omega

theorem blk6 (c : Dev nD) (t : Fin cfg0.N) (n : Fin 128) (k : Fin 768) :
    iblk m c 6 t (ix2 n k) = (V m c main_v26 : S128x768.Idx → EReal) (ix2 n k) := by
  obtain ⟨-, -, -, -, -, -, -, -, -, -, -, -, -, -, e0, e1, -⟩ := idx_facts t
  show V m c main_v26 (((cfg0.win 6).blk t).view.emb (ix2 n k)) = _
  refine congrArg _ (funext fun a => Fin.ext ?_)
  match a with
  | ⟨0, _⟩ => show win0_6.index t (0 : Fin 2) * 128 + 1 * n.val = n.val; omega
  | ⟨1, _⟩ => show win0_6.index t (1 : Fin 2) * 768 + 1 * k.val = k.val; omega

/-! ## The result array -/

/-- The specification's score on the arrays as the region finds them. -/
def kernelScore (c : Dev nD) : S64x128.Idx → EReal := fun i =>
  Cert.Bridge.scoreAll (V m c main_v23) (V m c main_v24) (V m c main_v25) (V m c main_v26) (V m c main_arg4)
    (V m c main_arg5) (V m c main_v22) ⟨(i 0).val, idx2_lt0 i⟩ ⟨(i 1).val, idx2_lt1 i⟩

/-- What point `t` writes back is block `t` of `kernelScore`. -/
theorem flushed_eq (c : Dev nD) (t : Fin cfg0.N) :
    (dats m 0 c).flushed 7 t = ((cfg0.win 7).blk t).view.read (Elt Ideal) (kernelScore m c) := by
  rw [Value.flushed7_A, out_eq]
  obtain ⟨-, -, -, -, -, -, -, -, -, -, -, -, -, -, -, -, e0, e1⟩ := idx_facts t
  funext j
  obtain ⟨b, n, rfl⟩ : ∃ (b : Fin 8) (n : Fin 128), j = ix2 b n := ⟨j 0, j 1, eq_ix2 j⟩
  show bodyOut (iblk m c 0 t) (iblk m c 1 t) (iblk m c 2 t) (iblk m c 3 t) (iblk m c 4 t) (iblk m c 5 t) (iblk m c 6 t) (ix2 b n)
    = kernelScore m c (((cfg0.win 7).blk t).view.emb (ix2 b n))
  refine (bodyOut_apply _ _ _ _ _ _ _ b n).trans ?_
  refine (blockScore_eq _ _ _ _ _ _ _ (V m c main_v23) (V m c main_v24) (V m c main_v25) (V m c main_v26)
    (V m c main_arg4) (V m c main_arg5) (V m c main_v22) t.val (t_lt t) (blk0 m c t) (blk1 m c t) (blk2 m c t)
    (blk3 m c t) (blk4 m c t) (blk5 m c t) (blk6 m c t) b n).trans ?_
  unfold kernelScore
  congr 1
  · exact Fin.ext (by show t.val * 8 + b.val = win0_7.index t (0 : Fin 2) * 8 + 1 * b.val; omega)
  · exact Fin.ext (by show n.val = win0_7.index t (1 : Fin 2) * 128 + 1 * n.val; omega)

/-- An index of the result is in point `t`'s block iff each coordinate is in the block's range on its axis. -/
theorem mem_blk (t : Fin cfg0.N) (i : S64x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v27).slice (win0_7.rect t)).set ↔ _
  rw [View.set_slice_whole, Rect.mem_set_unit]
  exact Iff.rfl

/-- Every index of the result is in the block of the point that treats its row. -/
theorem cover (i : S64x128.Idx) : ∃ t : Fin cfg0.N, (cfg0.win 7).flush t = true ∧ i ∈ ((cfg0.win 7).blk t).view.set := by
  have hi0 : (i 0).val < 64 := (i 0).isLt
  have hi1 : (i 1).val < 128 := (i 1).isLt
  let t : Fin cfg0.N := ⟨(i 0).val / 8, by rw [show cfg0.N = 8 from N_0]; omega⟩
  obtain ⟨-, -, -, -, -, -, -, -, -, -, -, -, -, -, -, -, e0, e1⟩ := idx_facts t
  refine ⟨t, flush0_7 t, ?_⟩
  rw [mem_blk]
  intro a
  have ht : t.val = (i 0).val / 8 := rfl
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 128 ≤ (i 1).val ∧ (i 1).val < win0_7.index t (1 : Fin 2) * 128 + 128; omega

/-- The result array after the run. -/
theorem final (c : Dev nD) : (dats m 0 c).arrAt 7 cfg0.N = kernelScore m c :=
  (dats m 0 c).arrAt_eq_of_cover 7 (kernelScore m c) (fun t _ => flushed_eq m c t) cover

/-- The kernel's run with the result array at `kernelScore`, the arguments unchanged. -/
theorem run : θ_run defs (onTc (τ := τ) (main (F := Ideal))) ⟨m, fun _ => 0, ρ⟩ fun r => ∀ c : Dev nD,
      r.2.mem ((c : Thread nD τ).loc main_v27) = kernelScore m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Body

end
-- ==== Proof.HostReads.lean ====
/-
  What the host operations before the kernel's region leave in the arrays the region stages.

  Four of the staged arrays are the float arguments after a change of format, which on the extended reals is the
  identity. The fifth is the array of position weights: the attention mask as floats, with `0` written at one
  position per query — row `q`, column (sum of row `q` of the mask) − 1, a negative row or column first moved up
  by the extent of its axis — and then `0` written at column 0 of every query.
-/
import proofs.«147971_j15118284882567_2_alg».proof.Proof.Gen.KernelIdeal.Frame
import Idealize.ShloMosaic.Lib.StableHlo.Run
import Idealize.ShloMosaic.PureOps.Ideal

set_option maxRecDepth 16384

noncomputable section

namespace Cert.KernelIdeal.Body

open Cert.KernelIdeal Cert.KernelIdeal.Gen Idealize.ShloMosaic Idealize.ShloMosaic.TcCoe Idealize.SL.Sem
open Idealize.ShloMosaic.StableHlo

/-- The index pairs (row, column) of the first write: row `q` (moved up by 64 where negative, which it never is) and
    the sum of row `q` of the mask minus one (moved up by 32 where negative). -/
def idxPairs (x6 : (⟨S64x32, .i32⟩ : BufTy).Contents (Elt Ideal)) : (⟨S64x2, .i32⟩ : BufTy).Contents (Elt Ideal) :=
  concatenate S64x2 1 [⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩, ⟨S64x1, (broadcastInDim S64x1 ![0] bcast_S64_S64x1_0 (select (cmpi .slt (subi (Host.reduce IntOp.addi x6 (constantI S_ 32 0#32) reducesTo_S64x32_S64_d1 h_S_) (broadcastInDim S64 ![] bcast_S_S64 (constantI S_ 32 1#32))) (broadcastInDim S64 ![] bcast_S_S64 (constantI S_ 32 0#32))) (addi (subi (Host.reduce IntOp.addi x6 (constantI S_ 32 0#32) reducesTo_S64x32_S64_d1 h_S_) (broadcastInDim S64 ![] bcast_S_S64 (constantI S_ 32 1#32))) (broadcastInDim S64 ![] bcast_S_S64 (constantI S_ 32 32#32))) (subi (Host.reduce IntOp.addi x6 (constantI S_ 32 0#32) reducesTo_S64x32_S64_d1 h_S_) (broadcastInDim S64 ![] bcast_S_S64 (constantI S_ 32 1#32)))))⟩] concatenates_S64x1_S64x1_S64x2_d1

/-- A row of 64 float zeros: the value both writes write. -/
def zeroRow : (⟨S64, .f32⟩ : BufTy).Contents (Elt Ideal) :=
  broadcastInDim S64 ![] bcast_S_S64 (constant (F := Ideal) S_ .f32 0x00000000#32)

/-- The one column index of the second write: 0. -/
def zeroIdx : (⟨S1, .i32⟩ : BufTy).Contents (Elt Ideal) :=
  broadcastInDim S1 ![] bcast_S_S1 (constantI S_ 32 0#32)

/-- The position weights as a function of the attention mask. -/
def weights (x6 : (⟨S64x32, .i32⟩ : BufTy).Contents (Elt Ideal)) : (⟨S64x32, .f32⟩ : BufTy).Contents (Elt Ideal) :=
  Host.scatter scatter_S64x32_S1_S64_0_1_1_0 (fun _ b => b)
    (Host.scatter scatter_S64x32_S64x2_S64_n_01_01_1 (fun _ b => b) (sitofp (F := Ideal) .f32 x6) (idxPairs x6) zeroRow)
    zeroIdx zeroRow

variable (m : (ℓ : Loc nD τ sig) → Buf (Elt Ideal) ℓ)

/-- The staged query token embeddings are the argument's. -/
theorem V_v23 (c : Dev nD) : (V m c main_v23 : S64x32x32.Idx → EReal) = m ((c : Thread nD τ).loc main_arg0) := by
  have e : (V m c main_v23 : S64x32x32.Idx → EReal)
      = (truncf (F := Ideal) .bf16 (m ((c : Thread nD τ).loc main_arg0) : FVec Ideal S64x32x32 .f32) bitsLt_bf16_f32 : S64x32x32.Idx → EReal) := by
    dsimp only [Gen.V, Gen.hostOps0]; after_results_simp; all_goals rfl
  rw [e]; rfl

/-- The staged document token embeddings are the argument's. -/
theorem V_v24 (c : Dev nD) : (V m c main_v24 : S128x192x32.Idx → EReal) = m ((c : Thread nD τ).loc main_arg1) := by
  have e : (V m c main_v24 : S128x192x32.Idx → EReal)
      = (truncf (F := Ideal) .bf16 (m ((c : Thread nD τ).loc main_arg1) : FVec Ideal S128x192x32 .f32) bitsLt_bf16_f32 : S128x192x32.Idx → EReal) := by
    dsimp only [Gen.V, Gen.hostOps0]; after_results_simp; all_goals rfl
  rw [e]; rfl

/-- The staged query sentence embeddings are the argument's. -/
theorem V_v25 (c : Dev nD) : (V m c main_v25 : S64x768.Idx → EReal) = m ((c : Thread nD τ).loc main_arg2) := by
  have e : (V m c main_v25 : S64x768.Idx → EReal)
      = (truncf (F := Ideal) .bf16 (m ((c : Thread nD τ).loc main_arg2) : FVec Ideal S64x768 .f32) bitsLt_bf16_f32 : S64x768.Idx → EReal) := by
    dsimp only [Gen.V, Gen.hostOps0]; after_results_simp; all_goals rfl
  rw [e]; rfl

/-- The staged document sentence embeddings are the argument's. -/
theorem V_v26 (c : Dev nD) : (V m c main_v26 : S128x768.Idx → EReal) = m ((c : Thread nD τ).loc main_arg3) := by
  have e : (V m c main_v26 : S128x768.Idx → EReal)
      = (truncf (F := Ideal) .bf16 (m ((c : Thread nD τ).loc main_arg3) : FVec Ideal S128x768 .f32) bitsLt_bf16_f32 : S128x768.Idx → EReal) := by
    dsimp only [Gen.V, Gen.hostOps0]; after_results_simp; all_goals rfl
  rw [e]; rfl

set_option maxHeartbeats 2000000 in
/-- The staged position weights are `weights` of the attention mask. -/
theorem V_v22 (c : Dev nD) :
    (V m c main_v22 : S64x32.Idx → EReal) = weights (m ((c : Thread nD τ).loc main_arg6)) := by
  dsimp only [Gen.V, Gen.hostOps0]
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  all_goals rfl

end Cert.KernelIdeal.Body

end
-- ==== Proof.LibScatterConst.lean ====
/-
  A scatter whose body returns the update, with a constant update: the value at an operand index.

  `x.at[idx].set(v)` with the same value `v` in every update slot is a left fold, over the update indices, of the
  step "write `v` at the operand index this update index lands at, when it lands inside the operand". Whatever the
  order and however often an operand index is hit, the result at operand index `i` is `v` when some update index
  lands at `i`, and the operand's own element when none does.
-/
import Idealize.ShloMosaic.PureOps.ShapeOps

namespace Cert.LibScatterConst

open Idealize.ShloMosaic

variable {s si u : Shape} {α : Type} {w : Nat}

/-- One step of the fold: update slot `n` writes `v` at the operand index it lands at, if any. -/
private def step (d : ScatterDims s si u) (idx : IVec si w) (v : α) (r : s.Idx → α) (n : Fin u.numel) : s.Idx → α :=
  match d.resultIdx? (u.rowMajor.symm n) idx with
  | some i => fun i' => if i' = i then v else r i'
  | none => r

/-- A step leaves `v` where it stood. -/
private theorem step_of_eq (d : ScatterDims s si u) (idx : IVec si w) (v : α) (r : s.Idx → α) (n : Fin u.numel)
    (i : s.Idx) (h : r i = v) : step d idx v r n i = v := by
  unfold step
  cases d.resultIdx? (u.rowMajor.symm n) idx with
  | none => exact h
  | some k =>
    show (if i = k then v else r i) = v
    split
    · rfl
    · exact h

/-- A step writes `v` at the index it lands at. -/
private theorem step_of_hit (d : ScatterDims s si u) (idx : IVec si w) (v : α) (r : s.Idx → α) (n : Fin u.numel)
    (i : s.Idx) (h : d.resultIdx? (u.rowMajor.symm n) idx = some i) : step d idx v r n i = v := by
  unfold step
  rw [h]
  show (if i = i then v else r i) = v
  rw [if_pos rfl]

/-- A step that lands elsewhere, or nowhere, leaves the element at `i` alone. -/
private theorem step_of_miss (d : ScatterDims s si u) (idx : IVec si w) (v : α) (r : s.Idx → α) (n : Fin u.numel)
    (i : s.Idx) (h : d.resultIdx? (u.rowMajor.symm n) idx ≠ some i) : step d idx v r n i = r i := by
  unfold step
  cases hk : d.resultIdx? (u.rowMajor.symm n) idx with
  | none => rfl
  | some k =>
    show (if i = k then v else r i) = r i
    have hne : ¬ i = k := fun e => h (by rw [hk, e])
    rw [if_neg hne]

/-- The fold over any list of update slots: once some slot of the list lands at `i`, or the start already holds `v`
    there, the result at `i` is `v`. -/
private theorem foldl_step_of_hit (d : ScatterDims s si u) (idx : IVec si w) (v : α) (i : s.Idx) :
    ∀ (l : List (Fin u.numel)) (r : s.Idx → α),
      ((∃ n ∈ l, d.resultIdx? (u.rowMajor.symm n) idx = some i) ∨ r i = v) → l.foldl (step d idx v) r i = v := by
  intro l
  induction l with
  | nil =>
    intro r h
    rcases h with ⟨n, hn, _⟩ | h
    · exact absurd hn (List.not_mem_nil)
    · exact h
  | cons m l ih =>
    intro r h
    rw [List.foldl_cons]
    apply ih
    rcases h with ⟨n, hn, hhit⟩ | h
    · rcases List.mem_cons.1 hn with rfl | hn'
      · exact Or.inr (step_of_hit d idx v r n i hhit)
      · exact Or.inl ⟨n, hn', hhit⟩
    · exact Or.inr (step_of_eq d idx v r m i h)

/-- The fold over any list of update slots none of which lands at `i` leaves the element at `i` alone. -/
private theorem foldl_step_of_miss (d : ScatterDims s si u) (idx : IVec si w) (v : α) (i : s.Idx) :
    ∀ (l : List (Fin u.numel)) (r : s.Idx → α),
      (∀ n ∈ l, d.resultIdx? (u.rowMajor.symm n) idx ≠ some i) → l.foldl (step d idx v) r i = r i := by
  intro l
  induction l with
  | nil => intro r _; rfl
  | cons m l ih =>
    intro r h
    rw [List.foldl_cons, ih _ (fun n hn => h n (List.mem_cons_of_mem _ hn))]
    exact step_of_miss d idx v r m i (h m (List.mem_cons_self))

/-- The scatter with a constant update is the fold of `step`. -/
private theorem scatter_eq_foldl (d : ScatterDims s si u) (x : s.Idx → α) (idx : IVec si w) (v : α) :
    Host.scatter d (fun _ b => b) x idx (fun _ => v) = (List.finRange u.numel).foldl (step d idx v) x := rfl

/-- Setting the constant `v` by a scatter: an operand index some update index lands at holds `v`. -/
theorem scatter_set_const_of_hit (d : ScatterDims s si u) (x : s.Idx → α) (idx : IVec si w) (v : α) (i : s.Idx)
    (h : ∃ j : u.Idx, d.resultIdx? j idx = some i) :
    Host.scatter d (fun _ b => b) x idx (fun _ => v) i = v := by
  rw [scatter_eq_foldl]
  obtain ⟨j, hj⟩ := h
  exact foldl_step_of_hit d idx v i _ x
    (Or.inl ⟨u.rowMajor j, List.mem_finRange _, by rw [Equiv.symm_apply_apply]; exact hj⟩)

/-- Setting the constant `v` by a scatter: an operand index no update index lands at keeps the operand's element. -/
theorem scatter_set_const_of_miss (d : ScatterDims s si u) (x : s.Idx → α) (idx : IVec si w) (v : α) (i : s.Idx)
    (h : ∀ j : u.Idx, d.resultIdx? j idx ≠ some i) :
    Host.scatter d (fun _ b => b) x idx (fun _ => v) i = x i := by
  rw [scatter_eq_foldl]
  exact foldl_step_of_miss d idx v i _ x (fun n _ => h _)

/-- An update index lands at `i` exactly when, on every operand axis, `i`'s coordinate is the window's start plus
    the window coordinate (a sum that is then inside the operand, being a coordinate of `i`). -/
theorem resultIdx?_eq_some_iff (d : ScatterDims s si u) (j : u.Idx) (idx : IVec si w) (i : s.Idx) :
    d.resultIdx? j idx = some i ↔ ∀ a, ((i a).val : Int) = d.start j idx a + d.window j a := by
  constructor
  · intro e a
    unfold ScatterDims.resultIdx? at e
    split at e
    · rename_i h
      injection e with e
      rw [← e]
      exact (Int.toNat_of_nonneg (h a).1)
    · cases e
  · intro hi
    have h : ∀ a, 0 ≤ d.start j idx a + d.window j a ∧ d.start j idx a + d.window j a < s.size a := fun a => by
      rw [← hi a]; exact ⟨Int.natCast_nonneg _, by exact_mod_cast (i a).isLt⟩
    unfold ScatterDims.resultIdx?
    rw [dif_pos h]
    congr 1
    funext a
    apply Fin.ext
    show (d.start j idx a + d.window j a).toNat = (i a).val
    rw [← hi a, Int.toNat_natCast]

end Cert.LibScatterConst
-- ==== Proof.Weights.lean ====
/-
  The two scatters that make the query-position weights, read at an index.

  One program converts the integer weights to float, sets zeros at a list of (row, column) pairs, then sets column 0
  to zero; the other sets integer zeros at the same pairs and converts afterwards. Setting column 0 leaves every row's
  element there equal to the constant written and touches no other column; setting zeros commutes with the conversion,
  whatever the list of pairs is, since the integer zero converts to the real zero.
-/
import proofs.«147971_j15118284882567_2_alg».proof.Proof.LibScatterConst
import proofs.«147971_j15118284882567_2_alg».proof.Proof.Spec
import Idealize.ShloMosaic.PureOps.Ideal
import Idealize.ShloMosaic.Lib.ValueIdx

noncomputable section

namespace Cert.Bridge

open Idealize.ShloMosaic Idealize.ShloMosaic.ValueIdx Cert.LibScatterConst

/-- The dimension numbers of "set column 0 of a [64, 32] array from a length-64 update at the one index [0]": the
    update's one axis is a window axis going to the operand's rows, the operand's column axis is inserted and is the
    one axis the index vector (of length one) names. -/
def colZero : ScatterDims QIds ⟨1, ![1]⟩ ⟨1, ![64]⟩ :=
  { updateWindowDims := [0], insertedWindowDims := [1], scatterDimsToOperandDims := [1], indexVectorDim := 0 }

/-- With the index word zero the window starts at `0` on both operand axes: on the row axis because the index
    vector does not name it, on the column axis because the word read there is `0`. -/
theorem colZero_start (j : (⟨1, ![64]⟩ : Shape).Idx) (z : IVec ⟨1, ![1]⟩ 32) (hz : ∀ k, z k = 0#32) (a : Fin 2) :
    colZero.start j z a = 0 := by
  unfold ScatterDims.start
  split
  · rw [hz]; rfl
  · rfl

/-- The window coordinate on the row axis is the update index's coordinate. -/
theorem colZero_window_row (j : (⟨1, ![64]⟩ : Shape).Idx) : colZero.window j 0 = (j 0).val := rfl

/-- The window coordinate on the inserted column axis is `0`. -/
theorem colZero_window_col (j : (⟨1, ![64]⟩ : Shape).Idx) : colZero.window j 1 = 0 := rfl

/-- Setting column 0 to the constant `v`: every row's element in column 0 is `v` (update index `q` lands at
    row `q`, column 0). -/
theorem colZero_head (y : QIds.Idx → EReal) (z : IVec ⟨1, ![1]⟩ 32) (hz : ∀ k, z k = 0#32) (v : EReal) (q : Fin 64) :
    Host.scatter colZero (fun _ b => b) y z (fun _ => v) (ix2 q 0) = v := by
  apply scatter_set_const_of_hit
  refine ⟨ix1 q, (resultIdx?_eq_some_iff _ _ _ _).2 ?_⟩
  intro a
  rw [colZero_start _ z hz a, Int.zero_add]
  match a with
  | ⟨0, _⟩ => rfl
  | ⟨1, _⟩ => rfl

/-- Setting column 0 to the constant `v`: the other columns keep the operand's elements (every update index lands
    in column 0). -/
theorem colZero_tail (y : QIds.Idx → EReal) (z : IVec ⟨1, ![1]⟩ 32) (hz : ∀ k, z k = 0#32) (v : EReal) (q : Fin 64)
    (k : Fin 31) :
    Host.scatter colZero (fun _ b => b) y z (fun _ => v) (ix2 q k.succ) = y (ix2 q k.succ) := by
  apply scatter_set_const_of_miss
  intro j e
  have h1 := (resultIdx?_eq_some_iff _ _ _ _).1 e 1
  rw [colZero_start _ z hz 1, colZero_window_col, Int.zero_add] at h1
  have h2 : ((k.succ : Fin 32).val : Int) = ((0 : Nat) : Int) := h1
  rw [Fin.val_succ] at h2
  omega

/-- Converting to float commutes with setting zeros by a scatter: at an index some update lands at, both sides are
    zero (the integer `0` converts to the real `0`); at an index none lands at, both sides are the converted
    operand element. Which case holds depends on the dimension numbers and the indices only, not on the operand. -/
theorem convert_scatter_zero (d1 : ScatterDims QIds ⟨2, ![64, 2]⟩ ⟨1, ![64]⟩) (x6 : QIds.Idx → BitVec 32)
    (I : IVec ⟨2, ![64, 2]⟩ 32) (i : QIds.Idx) :
    Host.scatter d1 (fun _ b => b) (fun i => FloatOps.sitofp (F := Ideal) .f32 (x6 i)) I (fun _ => (0 : EReal)) i
      = FloatOps.sitofp (F := Ideal) .f32 (Host.scatter d1 (fun _ b => b) x6 I (fun _ => 0#32) i) := by
  by_cases h : ∃ j : (⟨1, ![64]⟩ : Shape).Idx, d1.resultIdx? j I = some i
  · rw [scatter_set_const_of_hit d1 _ I _ i h, scatter_set_const_of_hit d1 _ I _ i h]
    show (0 : EReal) = (((0#32 : BitVec 32).toInt : ℝ) : EReal)
    simp
  · have h' : ∀ j : (⟨1, ![64]⟩ : Shape).Idx, d1.resultIdx? j I ≠ some i := fun j e => h ⟨j, e⟩
    rw [scatter_set_const_of_miss d1 _ I _ i h', scatter_set_const_of_miss d1 _ I _ i h']

end Cert.Bridge

end
-- ==== Proof.LibTypedRef.lean ====
/-
  Typed references to buffers: moving contents between a value's type and its buffer's type.

  A typed reference carries a buffer together with a proof that the buffer's type is the value's type. Contents are moved
  from the value's type to the buffer's, and back, by a cast along that proof. A cast never changes the value: a value
  moved out and back is itself, and a moved value equals any value it is equal to across the two types.
-/
import Idealize.ShloMosaic.Lib.StableHlo

noncomputable section

namespace Cert.LibTypedRef

open Idealize.ShloMosaic

variable {sig : RefSig} {T : BufTy} {Val : EltTy → Type}

/-- Contents moved to the buffer's type and back are unchanged. -/
theorem ofBuf_toBuf (x : StableHlo.TRef sig T) (v : T.Contents Val) : x.ofBuf (x.toBuf v) = v :=
  eq_of_heq ((cast_heq _ _).trans (cast_heq _ _))

/-- Contents read at the value's type are any value of that type they equal across the two types. -/
theorem ofBuf_of_heq (x : StableHlo.TRef sig T) (v : x.ref.ty.Contents Val) (w : T.Contents Val) (h : HEq v w) :
    x.ofBuf v = w :=
  eq_of_heq ((cast_heq _ v).trans h)

/-- Contents written at the buffer's type are any value of that type they equal across the two types. -/
theorem toBuf_of_heq (x : StableHlo.TRef sig T) (v : T.Contents Val) (w : x.ref.ty.Contents Val) (h : HEq v w) :
    x.toBuf v = w :=
  eq_of_heq ((cast_heq _ v).trans h)

end Cert.LibTypedRef

end
-- ==== Proof.WeightsJoin.lean ====
/-
  The two programs' position weights agree where the reference uses them, and the kernel's vanish at position 0.

  The kernel's weights are the mask converted to float, zeroed at one (row, column) pair per query, then zeroed in
  column 0. The reference's are the mask zeroed at the same pairs as integers, then converted; it never reads
  column 0. Zeroing column 0 leaves the other columns alone, and zeroing at the pairs commutes with the conversion,
  so the two agree at every column but 0, where the kernel's weight is 0.
-/
import proofs.«147971_j15118284882567_2_alg».proof.Proof.HostReads
import proofs.«147971_j15118284882567_2_alg».proof.Proof.Weights
import proofs.«147971_j15118284882567_2_alg».proof.Proof.RefRead

set_option maxRecDepth 16384

noncomputable section

namespace Cert.Bridge

open Idealize.ShloMosaic Idealize.ShloMosaic.ValueIdx

/-- The row of float zeros both writes write is the constant function `0`. -/
theorem zeroRow_eq : (Cert.KernelIdeal.Body.zeroRow : (⟨1, ![64]⟩ : Shape).Idx → EReal) = fun _ => 0 := by
  funext j
  show Ideal.ofBits .f32 0x00000000#32 = 0
  exact Ideal.ofBits_zero_f32

/-- The kernel's weight at position 0 of every query is `0`. -/
theorem kernel_weights_head (x6 : QIds.Idx → BitVec 32) (q : Fin 64) :
    Cert.KernelIdeal.Body.weights x6 (ix2 q 0) = 0 := by
  unfold Cert.KernelIdeal.Body.weights
  rw [zeroRow_eq]
  exact colZero_head _ Cert.KernelIdeal.Body.zeroIdx (fun _ => rfl) 0 q

/-- At positions 1..31 the kernel's weight is the reference's. -/
theorem kernel_weights_tail (x6 : QIds.Idx → BitVec 32) (q : Fin 64) (k : Fin 31) :
    Cert.KernelIdeal.Body.weights x6 (ix2 q k.succ)
      = Cert.ReferenceIdeal.Read.val_main_v19 (F := Ideal) x6 (ix2 q k.succ) := by
  unfold Cert.KernelIdeal.Body.weights
  rw [zeroRow_eq]
  refine (colZero_tail _ Cert.KernelIdeal.Body.zeroIdx (fun _ => rfl) 0 q k).trans ?_
  refine (convert_scatter_zero Cert.KernelIdeal.scatter_S64x32_S64x2_S64_n_01_01_1 x6
    (Cert.KernelIdeal.Body.idxPairs x6) (ix2 q k.succ)).trans ?_
  rfl

end Cert.Bridge

end
-- ==== Proof.RefScore.lean ====
/-
  The reference program's result, read at a query q and a document d, is the specification's tail score.

  The reference first takes every token similarity (a dot product over the 32 embedding coordinates), keeps it where
  the two token ids are equal and puts 0 elsewhere, takes the maximum over the document's 192 positions from -∞,
  multiplies by the query position's weight, drops query position 0, sums the 31 positions left from 0, and adds
  the dot product of the two sentence embeddings. Each step below reads one of these at explicit coordinates; the
  weight array is left as it is, a function of the last argument that is never opened.
-/
import proofs.«147971_j15118284882567_2_alg».proof.Proof.RefRead
import proofs.«147971_j15118284882567_2_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo
open scoped BigOperators

/-- The masked similarity: at (q, l, d, j) the select reads the two ids at (q, l) and (d, j), the dot product
    of token l of query q with token j of document d, and the zero word. -/
theorem masked_at (x0 : (⟨S64x32x32, .f32⟩ : BufTy).Contents (Elt Ideal)) (x1 : (⟨S128x192x32, .f32⟩ : BufTy).Contents (Elt Ideal))
    (x4 : (⟨S64x32, .i32⟩ : BufTy).Contents (Elt Ideal)) (x5 : (⟨S128x192, .i32⟩ : BufTy).Contents (Elt Ideal))
    (q : Fin 64) (l : Fin 32) (d : Fin 128) (j : Fin 192) :
    val_main_v26 (F := Ideal) x0 x1 x4 x5 (ix4 q l d j) = Cert.Bridge.masked x0 x1 x4 x5 q l d j := by
  rw [val_main_v26_apply, val_main_v25_apply, val_main_v23_apply, val_main_v21_apply, val_main_v24_apply,
    val_main_v22_apply, val_main_v20_apply, val_main_call0_v0_apply, val_main_cst_apply]
  have e4 : idx_main_v21 (idx_main_v23 (ix4 q l d j)) = ix2 q l :=
    funext fun a => by match a with | ⟨0, _⟩ => rfl | ⟨1, _⟩ => rfl
  have e5 : idx_main_v22 (idx_main_v24 (ix4 q l d j)) = ix2 d j :=
    funext fun a => by match a with | ⟨0, _⟩ => rfl | ⟨1, _⟩ => rfl
  have el : ∀ e : Fin 32, lidx_main_v20 (ix4 q l d j) e = ix3 q l e := fun e =>
    funext fun a => by match a with | ⟨0, _⟩ => rfl | ⟨1, _⟩ => rfl | ⟨2, _⟩ => rfl
  have er : ∀ e : Fin 32, ridx_main_v20 (ix4 q l d j) e = ix3 d j e := fun e =>
    funext fun a => by match a with | ⟨0, _⟩ => rfl | ⟨1, _⟩ => rfl | ⟨2, _⟩ => rfl
  rw [e4, e5]
  simp only [el, er]
  rfl

/-- The token score: the maximum over the last axis, from the -∞ word, is the fold of max over the 192 document
    positions of the masked similarity. -/
theorem tok_at (x0 : (⟨S64x32x32, .f32⟩ : BufTy).Contents (Elt Ideal)) (x1 : (⟨S128x192x32, .f32⟩ : BufTy).Contents (Elt Ideal))
    (x4 : (⟨S64x32, .i32⟩ : BufTy).Contents (Elt Ideal)) (x5 : (⟨S128x192, .i32⟩ : BufTy).Contents (Elt Ideal))
    (q : Fin 64) (l : Fin 32) (d : Fin 128) :
    val_main_v27 (F := Ideal) x0 x1 x4 x5 (ix3 q l d) = Cert.Bridge.tok x0 x1 x4 x5 q l d := by
  have h : S64x32x128x192.Reduces [3] S64x32x128 := by decide
  unfold val_main_v27
  refine (Host.reduce_eq_fold_single FloatOps.maximumf _ _ reducesTo_S64x32x128x192_S64x32x128_d3 h h_S_ (ix3 q l d)).trans ?_
  unfold Cert.Bridge.tok
  show (Finset.univ : Finset (Fin 192)).fold max (Ideal.ofBits .f32 0xFF800000#32)
      (val_main_v26 (F := Ideal) x0 x1 x4 x5 ∘ h.lift (ix3 q l d)) = _
  refine Finset.fold_congr fun j _ => ?_
  show val_main_v26 (F := Ideal) x0 x1 x4 x5 (h.lift (ix3 q l d) j) = _
  have e : h.lift (ix3 q l d) j = ix4 q l d j :=
    funext fun a => Fin.ext (by match a with | ⟨0, _⟩ => rfl | ⟨1, _⟩ => rfl | ⟨2, _⟩ => rfl | ⟨3, _⟩ => rfl)
  rw [e]
  exact masked_at x0 x1 x4 x5 q l d j

/-- The sentence score: the second operand is transposed first, so the product reads both sentence embeddings at
    (·, k). -/
theorem cls_at (x2 : (⟨S64x768, .f32⟩ : BufTy).Contents (Elt Ideal)) (x3 : (⟨S128x768, .f32⟩ : BufTy).Contents (Elt Ideal))
    (q : Fin 64) (d : Fin 128) :
    val_main_v34 (F := Ideal) x2 x3 (ix2 q d) = Cert.Bridge.cls x2 x3 q d := by
  rw [val_main_v34_apply]
  unfold Cert.Bridge.cls
  refine Finset.sum_congr rfl fun k _ => ?_
  rw [val_main_v33_apply]
  have e1 : lidx_main_v34 (ix2 q d) k = ix2 q k :=
    funext fun a => by match a with | ⟨0, _⟩ => rfl | ⟨1, _⟩ => rfl
  have e2 : idx_main_v33 (ridx_main_v34 (ix2 q d) k) = ix2 d k :=
    funext fun a => by match a with | ⟨0, _⟩ => rfl | ⟨1, _⟩ => rfl
  rw [e1, e2]

/-- The weighted token scores summed over query positions 1..31: the slice sends position k of the 31 to k + 1,
    the weight is broadcast along the documents, and the sum starts from the zero word. -/
theorem tail_at (x0 : (⟨S64x32x32, .f32⟩ : BufTy).Contents (Elt Ideal)) (x1 : (⟨S128x192x32, .f32⟩ : BufTy).Contents (Elt Ideal))
    (x4 : (⟨S64x32, .i32⟩ : BufTy).Contents (Elt Ideal)) (x5 : (⟨S128x192, .i32⟩ : BufTy).Contents (Elt Ideal))
    (x6 : (⟨S64x32, .i32⟩ : BufTy).Contents (Elt Ideal)) (q : Fin 64) (d : Fin 128) :
    val_main_v32 (F := Ideal) x0 x1 x4 x5 x6 (ix2 q d)
      = ∑ k : Fin 31, val_main_v19 (F := Ideal) x6 (ix2 q k.succ) * Cert.Bridge.tok x0 x1 x4 x5 q k.succ d := by
  have hz : val_main_cst_7 (F := Ideal) (Shape.Idx.first h_S_) = 0 := Ideal.ofBits_zero_f32
  rw [val_main_v32_apply, hz, zero_add]
  refine Finset.sum_congr rfl fun k _ => ?_
  rw [val_main_v31_apply, val_main_v30_apply, val_main_v29_apply, val_main_v28_apply]
  have e1 : idx_main_v31 (idx_main_v32 (ix2 q d) k) = ix3 q k.succ d :=
    funext fun a => Fin.ext (by
      match a with
      | ⟨0, _⟩ => rfl
      | ⟨1, _⟩ => show 1 + k.val = k.val + 1; omega
      | ⟨2, _⟩ => rfl)
  have e2 : idx_main_v28 (idx_main_v29 (ix3 q k.succ d)) = ix2 q k.succ :=
    funext fun a => by match a with | ⟨0, _⟩ => rfl | ⟨1, _⟩ => rfl
  rw [e1, e2, tok_at, Ideal.mulf_def]
  exact mul_comm _ _

/-- The reference's result at (q, d) is the tail score with the reference's own weights. -/
theorem ref_score (x0 : (⟨S64x32x32, .f32⟩ : BufTy).Contents (Elt Ideal)) (x1 : (⟨S128x192x32, .f32⟩ : BufTy).Contents (Elt Ideal))
    (x2 : (⟨S64x768, .f32⟩ : BufTy).Contents (Elt Ideal)) (x3 : (⟨S128x768, .f32⟩ : BufTy).Contents (Elt Ideal))
    (x4 : (⟨S64x32, .i32⟩ : BufTy).Contents (Elt Ideal)) (x5 : (⟨S128x192, .i32⟩ : BufTy).Contents (Elt Ideal))
    (x6 : (⟨S64x32, .i32⟩ : BufTy).Contents (Elt Ideal)) (q : Fin 64) (d : Fin 128) :
    Cert.ReferenceIdeal.Read.val_main_v35 (F := Ideal) x0 x1 x2 x3 x4 x5 x6 (ix2 q d)
      = Cert.Bridge.scoreTail x0 x1 x2 x3 x4 x5 (Cert.ReferenceIdeal.Read.val_main_v19 (F := Ideal) x6) q d := by
  rw [val_main_v35_apply, tail_at, cls_at, Ideal.addf_def]
  rfl

end Cert.ReferenceIdeal.RefValue

end
-- ==== Proof.Join.lean ====
/-
  The reference's result is the kernel's result array, entry by entry, when the arguments agree.

  At `(q, d)` the reference's result is the score summed over query positions 1..31 with the reference's weights;
  the kernel's array holds the score summed over all 32 positions with the kernel's weights. The staged arrays are
  the arguments themselves, the kernel's weights vanish at position 0 and equal the reference's elsewhere, and on the
  extended reals `0 * x = 0` for every `x`: the two sums are the same number.
-/
import proofs.«147971_j15118284882567_2_alg».proof.Proof.KernelArray
import proofs.«147971_j15118284882567_2_alg».proof.Proof.WeightsJoin
import proofs.«147971_j15118284882567_2_alg».proof.Proof.RefScore

set_option maxRecDepth 16384

noncomputable section

namespace Cert.Bridge

open Idealize.ShloMosaic Idealize.ShloMosaic.TcCoe Idealize.SL.Sem Idealize.ShloMosaic.ValueIdx

/-- The reference's result, over arguments equal to the kernel's, is the kernel's result array. -/
theorem result_eq
    (m : (ℓ : Loc Cert.KernelIdeal.nD Cert.KernelIdeal.τ Cert.KernelIdeal.sig) → Buf (Elt Ideal) ℓ)
    (c : Dev Cert.KernelIdeal.nD)
    (x0 : QTok.Idx → EReal) (x1 : DTok.Idx → EReal) (x2 : QCls.Idx → EReal) (x3 : DCls.Idx → EReal)
    (x4 : QIds.Idx → BitVec 32) (x5 : DIds.Idx → BitVec 32) (x6 : QIds.Idx → BitVec 32)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6)) :
    Cert.ReferenceIdeal.Read.val_main_v35 (F := Ideal) x0 x1 x2 x3 x4 x5 x6 = Cert.KernelIdeal.Body.kernelScore m c := by
  subst h0 h1 h2 h3 h4 h5 h6
  funext i
  obtain ⟨q, d, rfl⟩ : ∃ (q : Fin 64) (d : Fin 128), i = ix2 q d := ⟨i 0, i 1, eq_ix2 i⟩
  rw [Cert.ReferenceIdeal.RefValue.ref_score]
  unfold Cert.KernelIdeal.Body.kernelScore
  rw [Cert.KernelIdeal.Body.V_v23, Cert.KernelIdeal.Body.V_v24, Cert.KernelIdeal.Body.V_v25,
    Cert.KernelIdeal.Body.V_v26, Cert.KernelIdeal.Body.V_v22, Cert.KernelIdeal.Gen.V_main_arg4,
    Cert.KernelIdeal.Gen.V_main_arg5]
  exact (scoreAll_eq_scoreTail _ _ _ _ _ _ _ _ q d (kernel_weights_head _ q) (kernel_weights_tail _ q)).symm

end Cert.Bridge

end
-- ==== Proof.lean ====
/-
  A late-interaction relevance score, computed by a tiled kernel and by a plain reference, is one function on the
  extended reals.

  For a query `q` (of 64) and a document `d` (of 128): every query token `l` (of 32) is compared with every token `j`
  (of 192) of the document — the dot product of their 32-dimensional embeddings where the two token ids are equal, `0`
  elsewhere —, the maximum over `j` is the token's score, the scores are summed over the query's tokens with a weight
  per token (the attention mask, zeroed at the last attended token), the first token left out, and the dot product of
  the two 768-dimensional sentence embeddings is added.

  The reference leaves the first token out by slicing it off; the kernel keeps all 32 tokens in a batched product and
  instead sets the first token's weight to zero. The kernel also treats 8 queries per grid point and the 128 documents
  in four chunks of 32 whose results it assembles in a scratch buffer, contracts the embeddings after a change of
  float format, and converts the mask to float before zeroing where the reference zeroes first. None of this changes
  the value on the extended reals: a change of format is the identity, a sum does not depend on its grouping, zeroing
  commutes with the conversion, and `0 * x = 0` for every extended real `x`, so the term of the first token vanishes
  whatever its score is. The precondition is not used.

  The modules: Spec (the score as one function of the arrays), Chunk / BodyReshape / BodyValue / BodyBlock (the kernel
  body's output block at an index), BodyPieces (the stores the body's run ends with), BlockSpec / KernelArray (from
  blocks to the result array), HostReads (what the host operations before the region leave), LibScatterConst /
  Weights / WeightsJoin (the two zeroing writes), RefScore (the reference's result at an index), Join (the two
  results are equal), and this file, which assembles the five claims.
-/
import proofs.«147971_j15118284882567_2_alg».proof.Defs
import proofs.«147971_j15118284882567_2_alg».proof.Proof.Gen.Kernel
import proofs.«147971_j15118284882567_2_alg».proof.Proof.Gen.Kernel.Skeleton
import proofs.«147971_j15118284882567_2_alg».proof.Proof.Gen.Kernel.Launch
import proofs.«147971_j15118284882567_2_alg».proof.Proof.Gen.Kernel.Points
import proofs.«147971_j15118284882567_2_alg».proof.Proof.Gen.Kernel.Frame
import proofs.«147971_j15118284882567_2_alg».proof.Proof.Gen.KernelIdeal
import proofs.«147971_j15118284882567_2_alg».proof.Proof.Gen.KernelIdeal.Skeleton
import proofs.«147971_j15118284882567_2_alg».proof.Proof.Gen.KernelIdeal.Launch
import proofs.«147971_j15118284882567_2_alg».proof.Proof.Gen.KernelIdeal.Points
import proofs.«147971_j15118284882567_2_alg».proof.Proof.Gen.KernelIdeal.Frame
import proofs.«147971_j15118284882567_2_alg».proof.Proof.Gen.KernelIdeal.Value
import proofs.«147971_j15118284882567_2_alg».proof.Proof.Gen.ReferenceIdeal
import proofs.«147971_j15118284882567_2_alg».proof.Proof.Gen.Pre_finite_inputs
import proofs.«147971_j15118284882567_2_alg».proof.Proof.Join
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- On the extended reals the kernel's result array ends at the score summed over all 32 query positions with
    weights that vanish at position 0, the reference's result at the score summed over positions 1..31 with the
    same weights there: one array, entry by entry, when the arguments agree. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  exact (Cert.ReferenceIdeal.Read.val_main_v35_eq _ _ _ _ _ _ _).trans
    (Cert.Bridge.result_eq m c _ _ _ _ _ _ _ h0 h1 h2 h3 h4 h5 h6)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
